-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S129x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S129x128 .f32 := Host.absf main_arg7
  let main_cst_10 : FVec F S_ .f32 := constant S_ .f32 0x7F800000#32
  let main_v30 : FVec F S129x128 .f32 := broadcastInDim S129x128 ![] bcast_S_S129x128 main_cst_10
  let main_v31 : IVec S129x128 1 := cmpf .olt main_v29 main_v30
  let main_c_11 : IVec S_ 1 := constantI S_ 1 1#1
  let main_v32 : IVec S_ 1 := (fun x v => Host.reduce IntOp.andi x v reducesTo_S129x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : FVec F S50000x3 .f32) (main_arg2 : IVec S2x800000 32) (main_arg3 : FVec F S129x128 .f32) (main_arg4 : FVec F S128 .f32) (main_arg5 : FVec F S128x64 .f32) (main_arg6 : FVec F S64 .f32) (main_arg7 : FVec F S129x128 .f32) (main_arg8 : FVec F S128 .f32) (main_arg9 : FVec F S128x1 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x128 .f32 := Host.absf main_arg3
  let main_cst_2 : FVec F S_ .f32 := constant S_ .f32 0x7F800000#32
  let main_v10 : FVec F S129x128 .f32 := broadcastInDim S129x128 ![] bcast_S_S129x128 main_cst_2
  let main_v11 : IVec S129x128 1 := cmpf .olt main_v9 main_v10
  let main_c_3 : IVec S_ 1 := constantI S_ 1 1#1
  let main_v12 : IVec S_ 1 := (fun x v => Host.reduce IntOp.andi x v reducesTo_S129x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S64x128 : Shape := ⟨2, ![64, 128]⟩
abbrev S64x256 : Shape := ⟨2, ![64, 256]⟩
abbrev S1x128 : Shape := ⟨2, ![1, 128]⟩
abbrev S1x256 : Shape := ⟨2, ![1, 256]⟩
abbrev S256 : Shape := ⟨1, ![256]⟩
abbrev S5000x64 : Shape := ⟨2, ![5000, 64]⟩
abbrev S5000x3 : Shape := ⟨2, ![5000, 3]⟩
abbrev S5000 : Shape := ⟨1, ![5000]⟩
abbrev S5000x1 : Shape := ⟨2, ![5000, 1]⟩
abbrev S5000x256 : Shape := ⟨2, ![5000, 256]⟩
abbrev S5000x128 : Shape := ⟨2, ![5000, 128]⟩
abbrev S1x64 : Shape := ⟨2, ![1, 64]⟩
abbrev S1x1 : Shape := ⟨2, ![1, 1]⟩

abbrev nBuf : Space → Nat
  | .hbm => 73
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x3, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x3, .f32⟩
  | .hbm, ⟨51, _⟩ => ⟨S800000x3, .f32⟩
  | .hbm, ⟨52, _⟩ => ⟨S64x128, .f32⟩
  | .hbm, ⟨53, _⟩ => ⟨S64x128, .f32⟩
  | .hbm, ⟨54, _⟩ => ⟨S64x256, .f32⟩
  | .hbm, ⟨55, _⟩ => ⟨S64x128, .f32⟩
  | .hbm, ⟨56, _⟩ => ⟨S64x128, .f32⟩
  | .hbm, ⟨57, _⟩ => ⟨S64x256, .f32⟩
  | .hbm, ⟨58, _⟩ => ⟨S1x128, .f32⟩
  | .hbm, ⟨59, _⟩ => ⟨S1x128, .f32⟩
  | .hbm, ⟨60, _⟩ => ⟨S1x256, .f32⟩
  | .hbm, ⟨61, _⟩ => ⟨S256, .f32⟩
  | .hbm, ⟨62, _⟩ => ⟨S1x128, .f32⟩
  | .hbm, ⟨63, _⟩ => ⟨S800000x64, .f32⟩
  | .hbm, ⟨64, _⟩ => ⟨S800000x3, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S_, .f32⟩
  | .hbm, ⟨70, _⟩ => ⟨S50000x3, .f32⟩
  | .hbm, ⟨71, _⟩ => ⟨S800000x1, .i32⟩
  | .hbm, ⟨72, _⟩ => ⟨S50000x3, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x3, .f32⟩
  | .local _ .vmem, ⟨5, _⟩ => ⟨S5000x3, .f32⟩
  | .local _ .vmem, ⟨6, _⟩ => ⟨S64x256, .f32⟩
  | .local _ .vmem, ⟨7, _⟩ => ⟨S64x256, .f32⟩
  | .local _ .vmem, ⟨8, _⟩ => ⟨S1x256, .f32⟩
  | .local _ .vmem, ⟨9, _⟩ => ⟨S256, .f32⟩
  | .local _ .vmem, ⟨10, _⟩ => ⟨S128x64, .f32⟩
  | .local _ .vmem, ⟨11, _⟩ => ⟨S64, .f32⟩
  | .local _ .vmem, ⟨12, _⟩ => ⟨S1x128, .f32⟩
  | .local _ .vmem, ⟨13, _⟩ => ⟨S1, .f32⟩
  | .local _ .vmem, ⟨14, _⟩ => ⟨S5000x64, .f32⟩
  | .local _ .vmem, ⟨15, _⟩ => ⟨S5000x64, .f32⟩
  | .local _ .vmem, ⟨16, _⟩ => ⟨S5000x3, .f32⟩
  | .local _ .vmem, ⟨17, _⟩ => ⟨S5000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_cst : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S129x128_S64x128_0_0 : S129x128.Slices ![0, 0] S64x128
  concatenates_S64x128_S64x128_S64x256_d1 : Shape.Concatenates [S64x128, S64x128] S64x256 1
  slices_S129x128_S64x128_64_0 : S129x128.Slices ![64, 0] S64x128
  slices_S129x128_S1x128_128_0 : S129x128.Slices ![128, 0] S1x128
  concatenates_S1x128_S1x128_S1x256_d1 : Shape.Concatenates [S1x128, S1x128] S1x256 1
  concatenates_S128_S128_S256_d0 : Shape.Concatenates [S128, S128] S256 0
  shapeCasts_S128x1_S1x128 : S128x1.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  reduces_S5000x3_S5000 : S5000x3.Reduces [1] S5000
  shapeCasts_S5000_S5000x1 : S5000.ShapeCasts S5000x1
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S5000x1_S5000x256 : S5000x1.Broadcasts S5000x256
  broadcasts_S1x256_S5000x256 : S1x256.Broadcasts S5000x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  slices_S5000x256_o0_0_S5000x128 : S5000x256.Slices ![0, 0] S5000x128
  slices_S5000x256_o0_128_S5000x128 : S5000x256.Slices ![0, 128] S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  broadcasts_S5000x1_S5000x3 : S5000x1.Broadcasts S5000x3
  bcast_S_S50000x64 : S_.BroadcastsInDim S50000x64 (![] : Fin 0 → Fin S50000x64.rank)
  bcast_S_S50000x3 : S_.BroadcastsInDim S50000x3 (![] : Fin 0 → Fin S50000x3.rank)
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S5000x64_S64x256_S5000x256_1_0_0_1_n_n_wf : DotDims.WF S5000x64 S64x256 S5000x256 [1] [0] [0] [1] [] []
  dot_S5000x128_S128x64_S5000x64_1_0_0_1_n_n_wf : DotDims.WF S5000x128 S128x64 S5000x64 [1] [0] [0] [1] [] []
  scatter_S50000x64_S800000x1_S800000x64_1_0_0_1_wf : ScatterDims.WF S50000x64 S800000x1 S800000x64 [1] [0] [0] 1
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S800000x3.size a
  hwx0_2 : ∀ i : grid0.Coords, EltTy.bits .f32 = 32 ∨ (Rect.block (s := S800000x3) S5000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S800000x64.size a
  hwx0_11 : ∀ i : grid0.Coords, EltTy.bits .f32 = 32 ∨ (Rect.block (s := S800000x64) S5000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x3.size a ≤ S800000x3.size a
  hwx0_12 : ∀ i : grid0.Coords, EltTy.bits .f32 = 32 ∨ (Rect.block (s := S800000x3) S5000x3.size (cc0_transform_12 i) (hinb0_12 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44_0) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v44_1) S5000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S129x128 : Shape := ⟨2, ![129, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S800000x128 : Shape := ⟨2, ![800000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x3, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S800000x3, .f32⟩
  | .hbm, ⟨34, _⟩ => ⟨S800000x3, .f32⟩
  | .hbm, ⟨35, _⟩ => ⟨S_, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S800000x129, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S800000x128, .f32⟩
  | .hbm, ⟨68, _⟩ => ⟨S800000x128, .f32⟩
  | .hbm, ⟨69, _⟩ => ⟨S800000x128, .f32⟩
  | .hbm, ⟨70, _⟩ => ⟨S800000x64, .f32⟩
  | .hbm, ⟨71, _⟩ => ⟨S1x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S800000x128, .f32⟩
  | .hbm, ⟨79, _⟩ => ⟨S1x128, .f32⟩
  | .hbm, ⟨80, _⟩ => ⟨S800000x128, .f32⟩
  | .hbm, ⟨81, _⟩ => ⟨S800000x128, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S800000x128, .f32⟩
  | .hbm, ⟨91, _⟩ => ⟨S800000x1, .f32⟩
  | .hbm, ⟨92, _⟩ => ⟨S1x1, .f32⟩
  | .hbm, ⟨93, _⟩ => ⟨S800000x1, .f32⟩
  | .hbm, ⟨94, _⟩ => ⟨S800000x1, .f32⟩
  | .hbm, ⟨95, _⟩ => ⟨S800000x3, .f32⟩
  | .hbm, ⟨96, _⟩ => ⟨S800000x3, .f32⟩
  | .hbm, ⟨97, _⟩ => ⟨S_, .f32⟩
  | .hbm, ⟨98, _⟩ => ⟨S50000x3, .f32⟩
  | .hbm, ⟨99, _⟩ => ⟨S800000x1, .i32⟩
  | .hbm, ⟨100, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_8 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x128_S800000x128_1_0_0_1_n_n_wf : DotDims.WF S800000x129 S129x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x128_S800000x128_1_0_0_1_n_n : DotDims S800000x129 S129x128 S800000x128 where
  lhsContracting := [1]
  rhsContracting := [0]
  lhsNonContracting := [0]
  rhsNonContracting := [1]
  lhsBatch := []
  rhsBatch := []
  wf := dot_S800000x129_S129x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.EdgeSpec.lean ====
/-
  The mathematics of one message-passing layer over a graph's edges, on the extended reals.

  For an edge with source features `u`, target features `v` (64 numbers each) and relative position `r` (3 numbers),
  the first layer of either small network reads the 129 inputs (u, v, |r|²) against a 129 × H weight matrix. One program
  contracts all 129 inputs in one sum; the other splits the matrix by rows into the block that meets `u`, the block that
  meets `v` and the single row that meets |r|², and adds three partial results. The two agree because a finite sum over
  129 terms is the sum of its first 64, its next 64 and its last term (`sum_split`): only commutativity and associativity
  of addition are used, so no entry has to be finite.

  The activation is x · σ(x) with σ the logistic function 1 / (1 + e⁻ˣ).
-/
import Idealize.ShloMosaic.PureOps.Ideal
import Idealize.ShloMosaic.Lib.ValueIdx

noncomputable section

namespace Cert.Proof.EdgeSpec

open Idealize.ShloMosaic Idealize.ShloMosaic.ValueIdx

/-- The squared length of a vector of three coordinates. -/
def dsq (r : Fin 3 → EReal) : EReal := ∑ a : Fin 3, r a * r a

/-- x · σ(x), σ the logistic function. -/
def silu (x : EReal) : EReal := x * Ideal.logistic x

/-- The word 0x3F800000 is the number one. -/
theorem ofBits_one : Ideal.ofBits .f32 0x3F800000#32 = 1 := by
  simp [Ideal.ofBits, Ideal.ieee, -EReal.coe_mul]; norm_num

/-- The activation spelt with a negation, an exponential, a sum with one and a quotient of one is x · σ(x). -/
theorem silu_expanded (x : EReal) :
    x * Ideal.div (Ideal.ofBits .f32 0x3F800000#32) (Ideal.ofBits .f32 0x3F800000#32 + Ideal.exp (-x)) = silu x := by
  rw [ofBits_one]; rfl

/-- One hidden unit before the activation, in split form: the weights `A` meeting the source features, the weights `B`
    meeting the target features, the weight `C` meeting the squared distance, and the bias. -/
def pre (A B : Fin 64 → EReal) (C bb : EReal) (u v : Fin 64 → EReal) (d : EReal) : EReal :=
  (∑ k : Fin 64, u k * A k) + (∑ k : Fin 64, v k * B k) + d * C + bb

/-- A sum of 129 terms is the sum of the first 64, the next 64 and the last. -/
theorem sum_split (f : Fin 129 → EReal) :
    ∑ q : Fin 129, f q
      = (∑ k : Fin 64, f ⟨k.val, Nat.lt_of_lt_of_le k.isLt (by decide)⟩)
        + (∑ k : Fin 64, f ⟨64 + k.val, Nat.lt_of_lt_of_le (Nat.add_lt_add_left k.isLt 64) (by decide)⟩)
        + f ⟨128, by decide⟩ := by
  have h1 : ∑ q : Fin 129, f q = ∑ q : Fin (128 + 1), f q := rfl
  rw [h1, Fin.sum_univ_castSucc]
  have h2 : ∑ q : Fin 128, f (Fin.castSucc q) = ∑ q : Fin (64 + 64), f (Fin.castSucc q) := rfl
  rw [h2, Fin.sum_univ_add]
  rfl

/-! ## The layer, edge by edge, as functions of whole arrays -/

section Arrays

variable (XR XC : FVec Ideal ⟨2, ![800000, 64]⟩ .f32) (RP : FVec Ideal ⟨2, ![800000, 3]⟩ .f32)

/-- Hidden unit `k` of edge `e` before the activation, for first-layer weights `W1` (129 × 128) and bias `b1`. -/
def hid (W1 : FVec Ideal ⟨2, ![129, 128]⟩ .f32) (b1 : FVec Ideal ⟨1, ![128]⟩ .f32) (e : Fin 800000) (k : Fin 128) : EReal :=
  pre (fun q => W1 (ix2 (⟨q.val, Nat.lt_of_lt_of_le q.isLt (by decide)⟩ : Fin 129) k))
    (fun q => W1 (ix2 (⟨64 + q.val, Nat.lt_of_lt_of_le (Nat.add_lt_add_left q.isLt 64) (by decide)⟩ : Fin 129) k))
    (W1 (ix2 (⟨128, by decide⟩ : Fin 129) k)) (b1 (ix1 k))
    (fun q => XR (ix2 e q)) (fun q => XC (ix2 e q)) (dsq fun a => RP (ix2 e a))

/-- The feature message of edge `e`, output feature `f`. -/
def msgAt (W1 : FVec Ideal ⟨2, ![129, 128]⟩ .f32) (b1 : FVec Ideal ⟨1, ![128]⟩ .f32)
    (W2 : FVec Ideal ⟨2, ![128, 64]⟩ .f32) (b2 : FVec Ideal ⟨1, ![64]⟩ .f32) (e : Fin 800000) (f : Fin 64) : EReal :=
  (∑ k : Fin 128, silu (hid XR XC RP W1 b1 e k) * W2 (ix2 k f)) + b2 (ix1 f)

/-- The scalar weight of edge `e`'s position update. -/
def wposAt (W1 : FVec Ideal ⟨2, ![129, 128]⟩ .f32) (b1 : FVec Ideal ⟨1, ![128]⟩ .f32)
    (W2 : FVec Ideal ⟨2, ![128, 1]⟩ .f32) (b2 : FVec Ideal ⟨1, ![1]⟩ .f32) (e : Fin 800000) : EReal :=
  (∑ k : Fin 128, silu (hid XR XC RP W1 b1 e k) * W2 (ix2 k (0 : Fin 1))) + b2 (ix1 (0 : Fin 1))

/-- All feature messages: an 800000 × 64 array. -/
def msgX (W1 : FVec Ideal ⟨2, ![129, 128]⟩ .f32) (b1 : FVec Ideal ⟨1, ![128]⟩ .f32)
    (W2 : FVec Ideal ⟨2, ![128, 64]⟩ .f32) (b2 : FVec Ideal ⟨1, ![64]⟩ .f32) : FVec Ideal ⟨2, ![800000, 64]⟩ .f32 :=
  fun i => msgAt XR XC RP W1 b1 W2 b2 (i 0) (i 1)

/-- All position updates: an 800000 × 3 array, the edge's scalar weight times its relative position. -/
def posUpd (W1 : FVec Ideal ⟨2, ![129, 128]⟩ .f32) (b1 : FVec Ideal ⟨1, ![128]⟩ .f32)
    (W2 : FVec Ideal ⟨2, ![128, 1]⟩ .f32) (b2 : FVec Ideal ⟨1, ![1]⟩ .f32) : FVec Ideal ⟨2, ![800000, 3]⟩ .f32 :=
  fun i => wposAt XR XC RP W1 b1 W2 b2 (i 0) * RP (ix2 (i 0) (i 1))

end Arrays

end Cert.Proof.EdgeSpec

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.KernelPoint.lean ====
/-
  What the edge kernel's body computes for one block of 5000 edges, entry by entry.

  The body loads a block of source features, target features and relative positions together with the (whole) weight
  arrays, and stores two results: the feature message (5000 × 64) and the position update (5000 × 3). Read at row `p`:
  the 256 hidden units — the two networks' first layers side by side, lanes 0–127 the feature network's, lanes 128–255 the
  position network's — are each  Σₖ u·A + Σₖ v·B + |r|²·C + bias  followed by x·σ(x); the feature message contracts lanes
  0–127 against the second-layer matrix and adds its bias; the position update's scalar is the lane sum of lanes 128–255
  against the second-layer row, plus its bias, and multiplies the relative position.

  A change of float format is the identity on the extended reals, a matrix product into a zero accumulator is the plain
  sum over the contracted axis, and a lane reduction from zero is the plain sum over the lane axis.
-/
import proofs.«142912_j82867099009204_2_alg».proof.Proof.Gen.KernelIdeal.Frame
import proofs.«142912_j82867099009204_2_alg».proof.Proof.EdgeSpec
import proofs.«142912_j82867099009204_2_alg».proof.Proof.LibKeepdims
import Idealize.ShloMosaic.PureOps.Ideal.Laws
import Idealize.ShloMosaic.Lib.ValueLayout

noncomputable section

namespace Cert.KernelIdeal.Point

open Cert.KernelIdeal Cert.KernelIdeal.Gen Idealize.ShloMosaic Idealize.ShloMosaic.ValueIdx Idealize.ShloMosaic.Keepdims
open Cert.Proof.EdgeSpec

/-! ## The two matrix products and the two lane sums, at an index -/

theorem matmul1_lhs0 (i : S5000x256.Idx) (q : dot_S5000x64_S64x256_S5000x256_1_0_0_1_n_n.contr.Idx) : (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem matmul1_lhs1 (i : S5000x256.Idx) (q : dot_S5000x64_S64x256_S5000x256_1_0_0_1_n_n.contr.Idx) : (dot_S5000x64_S64x256_S5000x256_1_0_0_1_n_n.lhsIdx i q 1).val = (q ⟨0, by decide⟩).val :=
  dot_S5000x64_S64x256_S5000x256_1_0_0_1_n_n.lhsIdx_val_of_single rfl i q
theorem matmul1_rhs0 (i : S5000x256.Idx) (q : dot_S5000x64_S64x256_S5000x256_1_0_0_1_n_n.contr.Idx) : (dot_S5000x64_S64x256_S5000x256_1_0_0_1_n_n.rhsIdx i q 0).val = (q ⟨0, by decide⟩).val :=
  dot_S5000x64_S64x256_S5000x256_1_0_0_1_n_n.rhsIdx_val_of_single rfl i q
theorem matmul1_rhs1 (i : S5000x256.Idx) (q : dot_S5000x64_S64x256_S5000x256_1_0_0_1_n_n.contr.Idx) : (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The first-layer product (5000 × 64 by 64 × 256 into zero) at `(p, j)`: the sum over the 64 contracted entries. -/
theorem matmul1_apply (A : FVec Ideal S5000x64 .bf16) (B : FVec Ideal S64x256 .bf16) (p : Fin 5000) (j : Fin 256) :
    matmul dot_S5000x64_S64x256_S5000x256_1_0_0_1_n_n none A B (constant S5000x256 .f32 0x00000000#32) (ix2 p j)
      = ∑ k : Fin 64, A (ix2 p k) * B (ix2 k j) := by
  refine (Ideal.matmul_constant_zero_apply dot_S5000x64_S64x256_S5000x256_1_0_0_1_n_n none A B (ix2 p j)).trans ?_
  rw [← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p j) ((ValueIdx.contrEquiv1 dot_S5000x64_S64x256_S5000x256_1_0_0_1_n_n 64 rfl rfl).symm k) = ix2 p k := funext fun a => Fin.ext (by
    match a with
    | ⟨0, _⟩ => exact matmul1_lhs0 _ _
    | ⟨1, _⟩ => exact (matmul1_lhs1 _ _).trans hk)
  have er : dot_S5000x64_S64x256_S5000x256_1_0_0_1_n_n.rhsIdx (ix2 p j) ((ValueIdx.contrEquiv1 dot_S5000x64_S64x256_S5000x256_1_0_0_1_n_n 64 rfl rfl).symm k) = ix2 k j := funext fun a => Fin.ext (by
    match a with
    | ⟨0, _⟩ => exact (matmul1_rhs0 _ _).trans hk
    | ⟨1, _⟩ => exact matmul1_rhs1 _ _)
  rw [el, er]

theorem matmul2_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem matmul2_lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem matmul2_rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem matmul2_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The second-layer product (5000 × 128 by 128 × 64 into zero) at `(p, f)`: the sum over the 128 contracted entries. -/
theorem matmul2_apply (A : FVec Ideal S5000x128 .bf16) (B : FVec Ideal S128x64 .bf16) (p : Fin 5000) (f : Fin 64) :
    matmul dot_S5000x128_S128x64_S5000x64_1_0_0_1_n_n none A B (constant S5000x64 .f32 0x00000000#32) (ix2 p f)
      = ∑ k : Fin 128, A (ix2 p k) * B (ix2 k f) := by
  refine (Ideal.matmul_constant_zero_apply dot_S5000x128_S128x64_S5000x64_1_0_0_1_n_n none A B (ix2 p f)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p f) ((ValueIdx.contrEquiv1 dot_S5000x128_S128x64_S5000x64_1_0_0_1_n_n 128 rfl rfl).symm k) = ix2 p k := funext fun a => Fin.ext (by
    match a with
    | ⟨0, _⟩ => exact matmul2_lhs0 _ _
    | ⟨1, _⟩ => exact (matmul2_lhs1 _ _).trans hk)
  have er : dot_S5000x128_S128x64_S5000x64_1_0_0_1_n_n.rhsIdx (ix2 p f) ((ValueIdx.contrEquiv1 dot_S5000x128_S128x64_S5000x64_1_0_0_1_n_n 128 rfl rfl).symm k) = ix2 k f := funext fun a => Fin.ext (by
    match a with
    | ⟨0, _⟩ => exact (matmul2_rhs0 _ _).trans hk
    | ⟨1, _⟩ => exact matmul2_rhs1 _ _)
  rw [el, er]

/-- A lane sum from zero of an `a × b` block, kept as a column and read at row `p`: the sum of row `p`. -/
theorem rowsum_apply {a b : ℕ} (v : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v ?_
  funext c; apply Fin.ext
  match c with
  | ⟨0, _⟩ => rfl
  | ⟨1, _⟩ => rfl

/-! ## The hidden layer at an index -/

/-- The 256 hidden units before the activation, over any operands: at row `p`, lane `j`, the split-form sum. -/
theorem hidden_apply (A1 A2 : FVec Ideal S5000x64 .bf16) (B1 B2 : FVec Ideal S64x256 .bf16) (r : FVec Ideal S5000x3 .f32)
    (c : FVec Ideal S1x256 .f32) (b : FVec Ideal S256 .f32)
    (h1 : S5000x3.Reduces [1] S5000) (hφ : FKind.Formats FTy.f32) (hacc : (0x00000000#32 : BitVec 32) = 0x00000000#32)
    (h2 : S5000.ShapeCasts S5000x1) (h3 : S5000x1.Broadcasts S5000x256) (h4 : S1x256.Broadcasts S5000x256) (h5 : S256.ShapeCasts S1x256)
    (p : Fin 5000) (j : Fin 256) :
    addf (addf (addf (matmul dot_S5000x64_S64x256_S5000x256_1_0_0_1_n_n none A1 B1 (constant S5000x256 .f32 0x00000000#32))
          (matmul dot_S5000x64_S64x256_S5000x256_1_0_0_1_n_n none A2 B2 (constant S5000x256 .f32 0x00000000#32)))
        (mulf (broadcastTo S5000x256 (shapeCast S5000x1 (multiReduction .add [1] S5000 (mulf r r) 0x00000000#32 h1 hφ hacc) h2) h3)
          (broadcastTo S5000x256 c h4)))
      (broadcastTo S5000x256 (shapeCast S1x256 b h5) h4) (ix2 p j)
      = pre (fun k => B1 (ix2 k j)) (fun k => B2 (ix2 k j)) (c (ix2 (0 : Fin 1) j)) (b (ix1 j))
          (fun k => A1 (ix2 p k)) (fun k => A2 (ix2 p k)) (dsq fun a => r (ix2 p a)) := by
  unfold pre dsq
  rw [addf_apply, addf_apply, addf_apply, mulf_apply, matmul1_apply, matmul1_apply, broadcastTo_a1_ab_apply,
    shapeCast_a_a1_apply, rowsum_apply, broadcastTo_1b_ab_apply, broadcastTo_row_of_vec_apply]
  rfl

/-- The hidden units after the activation, from the loaded blocks. -/
theorem act_apply (x0 x1 : Vec Ideal S5000x64 .f32) (x2 : Vec Ideal S5000x3 .f32) (x3 x4 : Vec Ideal S64x256 .f32)
    (x5 : Vec Ideal S1x256 .f32) (x6 : Vec Ideal S256 .f32) (p : Fin 5000) (j : Fin 256) :
    k0_pay4 (F := Ideal) x0 x1 x2 x3 x4 x5 x6 (ix2 p j)
      = silu (pre (fun k => x3 (ix2 k j)) (fun k => x4 (ix2 k j)) (x5 (ix2 (0 : Fin 1) j)) (x6 (ix1 j))
          (fun k => x0 (ix2 p k)) (fun k => x1 (ix2 p k)) (dsq fun a => x2 (ix2 p a))) := by
  refine (congrArg silu (hidden_apply (truncf .bf16 (shapeCast S5000x64 x0 _) _) (truncf .bf16 (shapeCast S5000x64 x1 _) _)
    (truncf .bf16 (shapeCast S64x256 x3 _) _) (truncf .bf16 (shapeCast S64x256 x4 _) _) (shapeCast S5000x3 x2 _)
    (shapeCast S1x256 x5 _) (shapeCast S256 x6 _) _ _ _ _ _ _ _ p j)).trans ?_
  simp only [truncf_apply, shapeCast_self]

/-! ## The two stored results at an index -/

/-- Lane `k` of the feature network's half (lanes 0–127) among the 256 hidden lanes. -/
abbrev laneX (k : Fin 128) : Fin 256 := ⟨0 + k.val, by have := k.isLt; omega⟩
/-- Lane `k` of the position network's half (lanes 128–255). -/
abbrev laneP (k : Fin 128) : Fin 256 := ⟨128 + k.val, by have := k.isLt; omega⟩

/-- The feature message over any hidden block `H`, second-layer matrix `W` and bias: the contraction of lanes 0–127. -/
theorem msg_abs (H : FVec Ideal S5000x256 .f32) (W : FVec Ideal S128x64 .f32) (bv : FVec Ideal S64 .f32)
    (hs : S5000x256.Slices ![0, 0] S5000x128) (hl1 hl2 : FTy.bf16.bits < FTy.f32.bits) (hc : S64.ShapeCasts S1x64)
    (hb : S1x64.Broadcasts S5000x64) (p : Fin 5000) (f : Fin 64) :
    addf (matmul dot_S5000x128_S128x64_S5000x64_1_0_0_1_n_n none (truncf .bf16 (extractStridedSlice S5000x128 ![0, 0] H hs) hl1)
        (truncf .bf16 W hl2) (constant S5000x64 .f32 0x00000000#32)) (broadcastTo S5000x64 (shapeCast S1x64 bv hc) hb) (ix2 p f)
      = (∑ k : Fin 128, H (ix2 p (laneX k)) * W (ix2 k f)) + bv (ix1 f) := by
  rw [addf_apply, matmul2_apply, broadcastTo_row_of_vec_apply]
  refine congrArg (· + bv (ix1 f)) (Finset.sum_congr rfl fun k _ => ?_)
  rw [truncf_apply, truncf_apply, slice2_axis1_eq]

/-- The position update over any relative positions `R`, hidden block `H` (lanes 128–255 already cut out), second-layer
    row `w` and bias: the lane sum, plus the bias, times the relative position. -/
theorem pos_abs (R : FVec Ideal S5000x3 .f32) (H : FVec Ideal S5000x128 .f32) (w : FVec Ideal S1x128 .f32) (bv : FVec Ideal S1 .f32)
    (hb1 : S1x128.Broadcasts S5000x128) (hr : S5000x128.Reduces [1] S5000) (hφ : FKind.Formats FTy.f32)
    (hacc : (0x00000000#32 : BitVec 32) = 0x00000000#32) (hc1 : S5000.ShapeCasts S5000x1) (hc2 : S1.ShapeCasts S1x1)
    (hb2 : S1x1.Broadcasts S5000x1) (hb3 : S5000x1.Broadcasts S5000x3) (p : Fin 5000) (a : Fin 3) :
    mulf (broadcastTo S5000x3 (addf (shapeCast S5000x1 (multiReduction .add [1] S5000 (mulf H (broadcastTo S5000x128 w hb1)) 0x00000000#32 hr hφ hacc) hc1)
        (broadcastTo S5000x1 (shapeCast S1x1 bv hc2) hb2)) hb3) R (ix2 p a)
      = ((∑ k : Fin 128, H (ix2 p k) * w (ix2 (0 : Fin 1) k)) + bv (ix1 (0 : Fin 1))) * R (ix2 p a) := by
  rw [mulf_apply, broadcastTo_a1_ab_apply, addf_apply, shapeCast_a_a1_apply, rowsum_apply, broadcastTo_row_of_vec_apply]
  refine congrArg (fun s => (s + bv (ix1 (0 : Fin 1))) * R (ix2 p a)) (Finset.sum_congr rfl fun k _ => ?_)
  rw [mulf_apply, broadcastTo_1b_ab_apply]

/-- THE FEATURE MESSAGE the body stores, at row `p`, feature `f`, from the loaded blocks. -/
theorem msg_apply (x0 x1 : Vec Ideal S5000x64 .f32) (x2 : Vec Ideal S5000x3 .f32) (x3 x4 : Vec Ideal S64x256 .f32)
    (x5 : Vec Ideal S1x256 .f32) (x6 : Vec Ideal S256 .f32) (x7 : Vec Ideal S128x64 .f32) (x8 : Vec Ideal S64 .f32)
    (p : Fin 5000) (f : Fin 64) :
    k0_pay1 (F := Ideal) (k0_pay6 x0 x1 x2 x3 x4 x5 x6 x7) x8 (ix2 p f)
      = (∑ k : Fin 128, silu (pre (fun q => x3 (ix2 q (laneX k))) (fun q => x4 (ix2 q (laneX k))) (x5 (ix2 (0 : Fin 1) (laneX k))) (x6 (ix1 (laneX k)))
          (fun q => x0 (ix2 p q)) (fun q => x1 (ix2 p q)) (dsq fun a => x2 (ix2 p a))) * x7 (ix2 k f)) + x8 (ix1 f) := by
  refine (msg_abs (k0_pay4 x0 x1 x2 x3 x4 x5 x6) x7 x8 _ _ _ _ _ p f).trans ?_
  refine congrArg (· + x8 (ix1 f)) (Finset.sum_congr rfl fun k _ => ?_)
  rw [act_apply]

/-- THE POSITION UPDATE the body stores, at row `p`, coordinate `a`, from the loaded blocks. -/
theorem pos_apply (x0 x1 : Vec Ideal S5000x64 .f32) (x2 : Vec Ideal S5000x3 .f32) (x3 x4 : Vec Ideal S64x256 .f32)
    (x5 : Vec Ideal S1x256 .f32) (x6 : Vec Ideal S256 .f32) (x9 : Vec Ideal S1x128 .f32) (x10 : Vec Ideal S1 .f32)
    (p : Fin 5000) (a : Fin 3) :
    k0_pay2 (F := Ideal) (k0_pay3 x2) (k0_pay5 x0 x1 x2 x3 x4 x5 x6) x9 x10 (ix2 p a)
      = ((∑ k : Fin 128, silu (pre (fun q => x3 (ix2 q (laneP k))) (fun q => x4 (ix2 q (laneP k))) (x5 (ix2 (0 : Fin 1) (laneP k))) (x6 (ix1 (laneP k)))
          (fun q => x0 (ix2 p q)) (fun q => x1 (ix2 p q)) (dsq fun a => x2 (ix2 p a))) * x9 (ix2 (0 : Fin 1) k)) + x10 (ix1 (0 : Fin 1)))
        * x2 (ix2 p a) := by
  have e := pos_abs (shapeCast S5000x3 x2 shapeCasts_S5000x3_S5000x3)
    (extractStridedSlice S5000x128 ![0, 128] (k0_pay4 x0 x1 x2 x3 x4 x5 x6) slices_S5000x256_o0_128_S5000x128)
    (shapeCast S1x128 x9 shapeCasts_S1x128_S1x128) x10 broadcasts_S1x128_S5000x128 reduces_S5000x128_S5000 (.inl rfl) rfl
    shapeCasts_S5000_S5000x1 shapeCasts_S1_S1x1 broadcasts_S1x1_S5000x1 broadcasts_S5000x1_S5000x3 p a
  refine e.trans ?_
  simp only [shapeCast_self]
  refine congrArg (fun s => (s + x10 (ix1 (0 : Fin 1))) * x2 (ix2 p a)) (Finset.sum_congr rfl fun k _ => ?_)
  rw [slice2_axis1_eq, act_apply]

end Cert.KernelIdeal.Point

end
-- ==== Proof.KernelArray.lean ====
/-
  From blocks to whole arrays: what the edge kernel's region leaves in its two result arrays.

  The grid has 160 points; point `t` reads rows 5000·t … 5000·t + 4999 of the three per-edge operands (source features,
  target features, relative positions), reads the weight operands whole, and writes rows 5000·t … 5000·t + 4999 of both
  results. Every row of a result lies in exactly the block of point ⌊row / 5000⌋, so the blocks tile the arrays, and what
  each block holds is the per-edge function of the body restricted to those rows. Hence each result array, after the
  region, is one function of the operand arrays as the region finds them, index by index.
-/
import proofs.«142912_j82867099009204_2_alg».proof.Proof.KernelPoint
import Idealize.ShloMosaic.Lib.Pipeline.Value

set_option maxRecDepth 16384

noncomputable section

namespace Cert.KernelIdeal.Region

open Cert.KernelIdeal Cert.KernelIdeal.Gen Cert.KernelIdeal.Point Idealize.ShloMosaic Idealize.ShloMosaic.TcCoe
open Idealize.ShloMosaic.ValueIdx Idealize.SL.Sem Cert.Proof.EdgeSpec
open Idealize.ShloMosaic.Pipeline (Dat)

/-! ## The region's two results as functions of its operand arrays -/

section Functions

variable (XR XC : FVec Ideal S800000x64 .f32) (RP : FVec Ideal S800000x3 .f32) (Wa Wb : FVec Ideal S64x256 .f32)
  (Wc : FVec Ideal S1x256 .f32) (b1 : FVec Ideal S256 .f32)

/-- The feature message of edge `e`, feature `f`: the feature network's lanes against its second layer. -/
def msgOf (W2 : FVec Ideal S128x64 .f32) (b2 : FVec Ideal S64 .f32) (e : Fin 800000) (f : Fin 64) : EReal :=
  (∑ k : Fin 128, silu (pre (fun q => Wa (ix2 q (laneX k))) (fun q => Wb (ix2 q (laneX k))) (Wc (ix2 (0 : Fin 1) (laneX k))) (b1 (ix1 (laneX k)))
        (fun q => XR (ix2 e q)) (fun q => XC (ix2 e q)) (dsq fun a => RP (ix2 e a))) * W2 (ix2 k f)) + b2 (ix1 f)

/-- The position update of edge `e`, coordinate `a`: the position network's scalar times the relative position. -/
def posOf (w2 : FVec Ideal S1x128 .f32) (b2 : FVec Ideal S1 .f32) (e : Fin 800000) (a : Fin 3) : EReal :=
  ((∑ k : Fin 128, silu (pre (fun q => Wa (ix2 q (laneP k))) (fun q => Wb (ix2 q (laneP k))) (Wc (ix2 (0 : Fin 1) (laneP k))) (b1 (ix1 (laneP k)))
        (fun q => XR (ix2 e q)) (fun q => XC (ix2 e q)) (dsq fun a => RP (ix2 e a))) * w2 (ix2 (0 : Fin 1) k)) + b2 (ix1 (0 : Fin 1))) * RP (ix2 e a)

/-- All feature messages. -/
def msgArr (W2 : FVec Ideal S128x64 .f32) (b2 : FVec Ideal S64 .f32) : FVec Ideal S800000x64 .f32 :=
  fun i => msgOf XR XC RP Wa Wb Wc b1 W2 b2 (i 0) (i 1)

/-- All position updates. -/
def posArr (w2 : FVec Ideal S1x128 .f32) (b2 : FVec Ideal S1 .f32) : FVec Ideal S800000x3 .f32 :=
  fun i => posOf XR XC RP Wa Wb Wc b1 w2 b2 (i 0) (i 1)

/-- A block of 5000 rows starting at row `r0`: the body's feature message is the whole-array function at those rows. -/
theorem block_msg (W2 : FVec Ideal S128x64 .f32) (b2 : FVec Ideal S64 .f32)
    (x0 x1 : Vec Ideal S5000x64 .f32) (x2 : Vec Ideal S5000x3 .f32) (r0 : ℕ) (hr0 : r0 + 5000 ≤ 800000)
    (h0 : ∀ (p : Fin 5000) (q : Fin 64), x0 (ix2 p q) = XR (ix2 (⟨r0 + p.val, by have := p.isLt; omega⟩ : Fin 800000) q))
    (h1 : ∀ (p : Fin 5000) (q : Fin 64), x1 (ix2 p q) = XC (ix2 (⟨r0 + p.val, by have := p.isLt; omega⟩ : Fin 800000) q))
    (h2 : ∀ (p : Fin 5000) (a : Fin 3), x2 (ix2 p a) = RP (ix2 (⟨r0 + p.val, by have := p.isLt; omega⟩ : Fin 800000) a))
    (p : Fin 5000) (f : Fin 64) :
    k0_pay1 (F := Ideal) (k0_pay6 x0 x1 x2 Wa Wb Wc b1 W2) b2 (ix2 p f)
      = msgOf XR XC RP Wa Wb Wc b1 W2 b2 (⟨r0 + p.val, by have := p.isLt; omega⟩ : Fin 800000) f := by
  rw [msg_apply]
  unfold msgOf
  simp only [h0, h1, h2]

/-- The same for the position update. -/
theorem block_pos (w2 : FVec Ideal S1x128 .f32) (b2 : FVec Ideal S1 .f32)
    (x0 x1 : Vec Ideal S5000x64 .f32) (x2 : Vec Ideal S5000x3 .f32) (r0 : ℕ) (hr0 : r0 + 5000 ≤ 800000)
    (h0 : ∀ (p : Fin 5000) (q : Fin 64), x0 (ix2 p q) = XR (ix2 (⟨r0 + p.val, by have := p.isLt; omega⟩ : Fin 800000) q))
    (h1 : ∀ (p : Fin 5000) (q : Fin 64), x1 (ix2 p q) = XC (ix2 (⟨r0 + p.val, by have := p.isLt; omega⟩ : Fin 800000) q))
    (h2 : ∀ (p : Fin 5000) (a : Fin 3), x2 (ix2 p a) = RP (ix2 (⟨r0 + p.val, by have := p.isLt; omega⟩ : Fin 800000) a))
    (p : Fin 5000) (a : Fin 3) :
    k0_pay2 (F := Ideal) (k0_pay3 x2) (k0_pay5 x0 x1 x2 Wa Wb Wc b1) w2 b2 (ix2 p a)
      = posOf XR XC RP Wa Wb Wc b1 w2 b2 (⟨r0 + p.val, by have := p.isLt; omega⟩ : Fin 800000) a := by
  rw [pos_apply]
  unfold posOf
  simp only [h0, h1, h2]

end Functions

/-! ## The index maps, decided over the grid -/

theorem hz2 : (![0, 0] : Fin 2 → Nat) = fun _ => 0 := funext fun a => by fin_cases a <;> rfl
theorem hz1 : (![0] : Fin 1 → Nat) = fun _ => 0 := funext fun a => by fin_cases a <;> rfl

/-- Point `t` is block `t` of the three per-edge operands and of both results, and block 0 of every weight operand. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem t_lt (t : Fin cfg0.N) : t.val < 160 := N_0 ▸ t.isLt

variable (m : (ℓ : Loc nD τ sig) → Buf (Elt Ideal) ℓ)

/-! ## Each operand's block at a point, read off its array -/

theorem blk0 (c : Dev nD) (t : Fin cfg0.N) (p : Fin 5000) (q : Fin 64) :
    iblk m c 0 t (ix2 p q) = V m c main_v10 (ix2 (⟨t.val * 5000 + p.val, by have := t_lt t; have := p.isLt; omega⟩ : Fin 800000) q) := by
  show V m c main_v10 (((cfg0.win 0).blk t).view.emb (ix2 p q)) = _
  obtain ⟨e0, e1, -⟩ := idx_facts t
  refine congrArg (V m c main_v10) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * q.val = q.val; omega

theorem blk1 (c : Dev nD) (t : Fin cfg0.N) (p : Fin 5000) (q : Fin 64) :
    iblk m c 1 t (ix2 p q) = V m c main_v17 (ix2 (⟨t.val * 5000 + p.val, by have := t_lt t; have := p.isLt; omega⟩ : Fin 800000) q) := by
  show V m c main_v17 (((cfg0.win 1).blk t).view.emb (ix2 p q)) = _
  obtain ⟨-, -, e0, e1, -⟩ := idx_facts t
  refine congrArg (V m c main_v17) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * q.val = q.val; omega

theorem blk2 (c : Dev nD) (t : Fin cfg0.N) (p : Fin 5000) (a' : Fin 3) :
    iblk m c 2 t (ix2 p a') = V m c main_v32 (ix2 (⟨t.val * 5000 + p.val, by have := t_lt t; have := p.isLt; omega⟩ : Fin 800000) a') := by
  show V m c main_v32 (((cfg0.win 2).blk t).view.emb (ix2 p a')) = _
  obtain ⟨-, -, -, -, e0, e1, -⟩ := idx_facts t
  refine congrArg (V m c main_v32) (funext fun a => Fin.ext ?_)
  match a with
  | ⟨0, _⟩ => show win0_2.index t (0 : Fin 2) * 5000 + 1 * p.val = t.val * 5000 + p.val; omega
  | ⟨1, _⟩ => show win0_2.index t (1 : Fin 2) * 3 + 1 * a'.val = a'.val; omega

/-- A weight operand's block is the whole operand, at every point. -/
theorem blk3 (c : Dev nD) (t : Fin cfg0.N) : iblk m c 3 t = V m c main_v35 := by
  funext y
  show V m c main_v35 (((cfg0.win 3).blk t).view.emb y) = V m c main_v35 y
  obtain ⟨-, -, -, -, -, -, e0, e1, -⟩ := idx_facts t
  refine congrArg (V m c main_v35) (funext fun a => Fin.ext ?_)
  match a with
  | ⟨0, _⟩ => show win0_3.index t (0 : Fin 2) * 64 + 1 * (y 0).val = (y 0).val; omega
  | ⟨1, _⟩ => show win0_3.index t (1 : Fin 2) * 256 + 1 * (y 1).val = (y 1).val; omega

theorem blk4 (c : Dev nD) (t : Fin cfg0.N) : iblk m c 4 t = V m c main_v38 := by
  funext y
  show V m c main_v38 (((cfg0.win 4).blk t).view.emb y) = V m c main_v38 y
  obtain ⟨-, -, -, -, -, -, -, -, e0, e1, -⟩ := idx_facts t
  refine congrArg (V m c main_v38) (funext fun a => Fin.ext ?_)
  match a with
  | ⟨0, _⟩ => show win0_4.index t (0 : Fin 2) * 64 + 1 * (y 0).val = (y 0).val; omega
  | ⟨1, _⟩ => show win0_4.index t (1 : Fin 2) * 256 + 1 * (y 1).val = (y 1).val; omega

theorem blk5 (c : Dev nD) (t : Fin cfg0.N) : iblk m c 5 t = V m c main_v41 := by
  funext y
  show V m c main_v41 (((cfg0.win 5).blk t).view.emb y) = V m c main_v41 y
  obtain ⟨-, -, -, -, -, -, -, -, -, -, e0, e1, -⟩ := idx_facts t
  refine congrArg (V m c main_v41) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem blk6 (c : Dev nD) (t : Fin cfg0.N) : iblk m c 6 t = V m c main_v42 := by
  funext y
  show V m c main_v42 (((cfg0.win 6).blk t).view.emb y) = V m c main_v42 y
  obtain ⟨-, -, -, -, -, -, -, -, -, -, -, -, e0, -⟩ := idx_facts t
  refine congrArg (V m c main_v42) (funext fun a => Fin.ext ?_)
  match a with
  | ⟨0, _⟩ => show win0_6.index t (0 : Fin 1) * 256 + 1 * (y 0).val = (y 0).val; omega

theorem blk7 (c : Dev nD) (t : Fin cfg0.N) : iblk m c 7 t = V m c main_arg5 := by
  funext y
  show V m c main_arg5 (((cfg0.win 7).blk t).view.emb y) = V m c main_arg5 y
  obtain ⟨-, -, -, -, -, -, -, -, -, -, -, -, -, e0, e1, -⟩ := idx_facts t
  refine congrArg (V m c main_arg5) (funext fun a => Fin.ext ?_)
  match a with
  | ⟨0, _⟩ => show win0_7.index t (0 : Fin 2) * 128 + 1 * (y 0).val = (y 0).val; omega
  | ⟨1, _⟩ => show win0_7.index t (1 : Fin 2) * 64 + 1 * (y 1).val = (y 1).val; omega

theorem blk8 (c : Dev nD) (t : Fin cfg0.N) : iblk m c 8 t = V m c main_arg6 := by
  funext y
  show V m c main_arg6 (((cfg0.win 8).blk t).view.emb y) = V m c main_arg6 y
  obtain ⟨-, -, -, -, -, -, -, -, -, -, -, -, -, -, -, e0, -⟩ := idx_facts t
  refine congrArg (V m c main_arg6) (funext fun a => Fin.ext ?_)
  match a with
  | ⟨0, _⟩ => show win0_8.index t (0 : Fin 1) * 64 + 1 * (y 0).val = (y 0).val; omega

theorem blk9 (c : Dev nD) (t : Fin cfg0.N) : iblk m c 9 t = V m c main_v43 := by
  funext y
  show V m c main_v43 (((cfg0.win 9).blk t).view.emb y) = V m c main_v43 y
  obtain ⟨-, -, -, -, -, -, -, -, -, -, -, -, -, -, -, -, e0, e1, -⟩ := idx_facts t
  refine congrArg (V m c main_v43) (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk10 (c : Dev nD) (t : Fin cfg0.N) : iblk m c 10 t = V m c main_arg10 := by
  funext y
  show V m c main_arg10 (((cfg0.win 10).blk t).view.emb y) = V m c main_arg10 y
  obtain ⟨-, -, -, -, -, -, -, -, -, -, -, -, -, -, -, -, -, -, e0, -⟩ := idx_facts t
  refine congrArg (V m c main_arg10) (funext fun a => Fin.ext ?_)
  match a with
  | ⟨0, _⟩ => show win0_10.index t (0 : Fin 1) * 1 + 1 * (y 0).val = (y 0).val; omega

/-! ## What each point writes back -/

/-- Point `t` writes back block `t` of the feature messages of the operand arrays as the region finds them. -/
theorem flushed_msg (c : Dev nD) (t : Fin cfg0.N) :
    (dats m 0 c).flushed 11 t = ((cfg0.win 11).blk t).view.read (Elt Ideal)
      (msgArr (V m c main_v10) (V m c main_v17) (V m c main_v32) (V m c main_v35) (V m c main_v38) (V m c main_v41) (V m c main_v42) (V m c main_arg5) (V m c main_arg6)) := by
  show (cfg0.win 11).cut (grid0.coords t) ((dats m 0 c).after 11 t) = _
  rw [after0_11]
  unfold out0_11
  rw [View.canon_unit_zero hz2]
  simp only [View.ld_unit_zero (S := S5000x64) hz2, View.ld_unit_zero (S := S5000x3) hz2, View.ld_unit_zero (S := S64x256) hz2,
    View.ld_unit_zero (S := S1x256) hz2, View.ld_unit_zero (S := S256) hz1, View.ld_unit_zero (S := S128x64) hz2,
    View.ld_unit_zero (S := S64) hz1]
  rw [blk3, blk4, blk5, blk6, blk7, blk8]
  obtain ⟨-, -, -, -, -, -, -, -, -, -, -, -, -, -, -, -, -, -, -, e0, e1, -⟩ := idx_facts t
  have key : ∀ y : S5000x64.Idx,
      k0_pay1 (F := Ideal) (k0_pay6 (iblk m c 0 t) (iblk m c 1 t) (iblk m c 2 t) (V m c main_v35) (V m c main_v38) (V m c main_v41) (V m c main_v42) (V m c main_arg5)) (V m c main_arg6) y
        = msgArr (V m c main_v10) (V m c main_v17) (V m c main_v32) (V m c main_v35) (V m c main_v38) (V m c main_v41) (V m c main_v42) (V m c main_arg5) (V m c main_arg6) (((cfg0.win 11).blk t).view.emb y) := by
    intro y
    obtain ⟨p, f, rfl⟩ : ∃ (p : Fin 5000) (f : Fin 64), y = ix2 p f := ⟨y 0, y 1, eq_ix2 y⟩
    refine (block_msg (V m c main_v10) (V m c main_v17) (V m c main_v32) (V m c main_v35) (V m c main_v38) (V m c main_v41) (V m c main_v42) (V m c main_arg5) (V m c main_arg6) (iblk m c 0 t) (iblk m c 1 t) (iblk m c 2 t)
      (t.val * 5000) (by have := t_lt t; omega) (blk0 m c t) (blk1 m c t) (blk2 m c t) p f).trans ?_
    show msgArr (V m c main_v10) (V m c main_v17) (V m c main_v32) (V m c main_v35) (V m c main_v38) (V m c main_v41) (V m c main_v42) (V m c main_arg5) (V m c main_arg6) (ix2 (⟨t.val * 5000 + p.val, _⟩ : Fin 800000) f) = _
    refine congrArg (msgArr (V m c main_v10) (V m c main_v17) (V m c main_v32) (V m c main_v35) (V m c main_v38) (V m c main_v41) (V m c main_v42) (V m c main_arg5) (V m c main_arg6)) (funext fun a => Fin.ext ?_)
    match a with
    | ⟨0, _⟩ => show t.val * 5000 + p.val = win0_11.index t (0 : Fin 2) * 5000 + 1 * p.val; omega
    | ⟨1, _⟩ => show f.val = win0_11.index t (1 : Fin 2) * 64 + 1 * f.val; omega
  funext y
  exact key y

/-- Point `t` writes back block `t` of the position updates. -/
theorem flushed_pos (c : Dev nD) (t : Fin cfg0.N) :
    (dats m 0 c).flushed 12 t = ((cfg0.win 12).blk t).view.read (Elt Ideal)
      (posArr (V m c main_v10) (V m c main_v17) (V m c main_v32) (V m c main_v35) (V m c main_v38) (V m c main_v41) (V m c main_v42) (V m c main_v43) (V m c main_arg10)) := by
  show (cfg0.win 12).cut (grid0.coords t) ((dats m 0 c).after 12 t) = _
  rw [after0_12]
  unfold out0_12
  rw [View.canon_unit_zero hz2]
  simp only [View.ld_unit_zero (S := S5000x64) hz2, View.ld_unit_zero (S := S5000x3) hz2, View.ld_unit_zero (S := S64x256) hz2,
    View.ld_unit_zero (S := S1x256) hz2, View.ld_unit_zero (S := S256) hz1, View.ld_unit_zero (S := S1x128) hz2,
    View.ld_unit_zero (S := S1) hz1]
  rw [blk3, blk4, blk5, blk6, blk9, blk10]
  obtain ⟨-, -, -, -, -, -, -, -, -, -, -, -, -, -, -, -, -, -, -, -, -, e0, e1⟩ := idx_facts t
  have key : ∀ y : S5000x3.Idx,
      k0_pay2 (F := Ideal) (k0_pay3 (iblk m c 2 t)) (k0_pay5 (iblk m c 0 t) (iblk m c 1 t) (iblk m c 2 t) (V m c main_v35) (V m c main_v38) (V m c main_v41) (V m c main_v42)) (V m c main_v43) (V m c main_arg10) y
        = posArr (V m c main_v10) (V m c main_v17) (V m c main_v32) (V m c main_v35) (V m c main_v38) (V m c main_v41) (V m c main_v42) (V m c main_v43) (V m c main_arg10) (((cfg0.win 12).blk t).view.emb y) := by
    intro y
    obtain ⟨p, a', rfl⟩ : ∃ (p : Fin 5000) (a' : Fin 3), y = ix2 p a' := ⟨y 0, y 1, eq_ix2 y⟩
    refine (block_pos (V m c main_v10) (V m c main_v17) (V m c main_v32) (V m c main_v35) (V m c main_v38) (V m c main_v41) (V m c main_v42) (V m c main_v43) (V m c main_arg10) (iblk m c 0 t) (iblk m c 1 t) (iblk m c 2 t)
      (t.val * 5000) (by have := t_lt t; omega) (blk0 m c t) (blk1 m c t) (blk2 m c t) p a').trans ?_
    show posArr (V m c main_v10) (V m c main_v17) (V m c main_v32) (V m c main_v35) (V m c main_v38) (V m c main_v41) (V m c main_v42) (V m c main_v43) (V m c main_arg10) (ix2 (⟨t.val * 5000 + p.val, _⟩ : Fin 800000) a') = _
    refine congrArg (posArr (V m c main_v10) (V m c main_v17) (V m c main_v32) (V m c main_v35) (V m c main_v38) (V m c main_v41) (V m c main_v42) (V m c main_v43) (V m c main_arg10)) (funext fun a => Fin.ext ?_)
    match a with
    | ⟨0, _⟩ => show t.val * 5000 + p.val = win0_12.index t (0 : Fin 2) * 5000 + 1 * p.val; omega
    | ⟨1, _⟩ => show a'.val = win0_12.index t (1 : Fin 2) * 3 + 1 * a'.val; omega
  funext y
  exact key y

/-! ## The blocks tile the result arrays -/

theorem mem_blk_msg (t : Fin cfg0.N) (i : S800000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v44_0).slice (win0_11.rect t)).set ↔ _
  rw [View.set_slice_whole, Rect.mem_set_unit]
  exact Iff.rfl

theorem mem_blk_pos (t : Fin cfg0.N) (i : S800000x3.Idx) :
    i ∈ ((cfg0.win 12).blk t).view.set ↔ ∀ a : Fin 2, win0_12.index t a * S5000x3.size a ≤ (i a).val ∧ (i a).val < win0_12.index t a * S5000x3.size a + S5000x3.size a := by
  show i ∈ ((View.whole main_v44_1).slice (win0_12.rect t)).set ↔ _
  rw [View.set_slice_whole, Rect.mem_set_unit]
  exact Iff.rfl

/-- Row `r` lies in the block of point ⌊r / 5000⌋. -/
theorem cover_msg (i : S800000x64.Idx) : ∃ t : Fin cfg0.N, (cfg0.win 11).flush t = true ∧ i ∈ ((cfg0.win 11).blk t).view.set := by
  have hi0 : (i 0).val < 800000 := (i 0).isLt
  have hi1 : (i 1).val < 64 := (i 1).isLt
  let t : Fin cfg0.N := ⟨(i 0).val / 5000, by rw [show cfg0.N = 160 from N_0]; omega⟩
  obtain ⟨-, -, -, -, -, -, -, -, -, -, -, -, -, -, -, -, -, -, -, e0, e1, -⟩ := idx_facts t
  have ht : t.val = (i 0).val / 5000 := rfl
  refine ⟨t, flush0_11 t, ?_⟩
  rw [mem_blk_msg]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 64 ≤ (i 1).val ∧ (i 1).val < win0_11.index t (1 : Fin 2) * 64 + 64; omega

theorem cover_pos (i : S800000x3.Idx) : ∃ t : Fin cfg0.N, (cfg0.win 12).flush t = true ∧ i ∈ ((cfg0.win 12).blk t).view.set := by
  have hi0 : (i 0).val < 800000 := (i 0).isLt
  have hi1 : (i 1).val < 3 := (i 1).isLt
  let t : Fin cfg0.N := ⟨(i 0).val / 5000, by rw [show cfg0.N = 160 from N_0]; omega⟩
  obtain ⟨-, -, -, -, -, -, -, -, -, -, -, -, -, -, -, -, -, -, -, -, -, e0, e1⟩ := idx_facts t
  have ht : t.val = (i 0).val / 5000 := rfl
  refine ⟨t, flush0_12 t, ?_⟩
  rw [mem_blk_pos]
  intro a
  match a with
  | ⟨0, _⟩ => show win0_12.index t (0 : Fin 2) * 5000 ≤ (i 0).val ∧ (i 0).val < win0_12.index t (0 : Fin 2) * 5000 + 5000; omega
  | ⟨1, _⟩ => show win0_12.index t (1 : Fin 2) * 3 ≤ (i 1).val ∧ (i 1).val < win0_12.index t (1 : Fin 2) * 3 + 3; omega

/-! ## The result arrays after the region -/

/-- The first result array after the region: every edge's feature message. -/
theorem final_msg (c : Dev nD) : (dats m 0 c).arrAt 11 cfg0.N
    = msgArr (V m c main_v10) (V m c main_v17) (V m c main_v32) (V m c main_v35) (V m c main_v38) (V m c main_v41) (V m c main_v42) (V m c main_arg5) (V m c main_arg6) :=
  (dats m 0 c).arrAt_eq_of_cover 11 _ (fun t _ => flushed_msg m c t) cover_msg

/-- The second result array after the region: every edge's position update. -/
theorem final_pos (c : Dev nD) : (dats m 0 c).arrAt 12 cfg0.N
    = posArr (V m c main_v10) (V m c main_v17) (V m c main_v32) (V m c main_v35) (V m c main_v38) (V m c main_v41) (V m c main_v42) (V m c main_v43) (V m c main_arg10) :=
  (dats m 0 c).arrAt_eq_of_cover 12 _ (fun t _ => flushed_pos m c t) cover_pos

end Cert.KernelIdeal.Region

end
-- ==== Proof.KernelFused.lean ====
/-
  The kernel's operands are the two networks' weights laid side by side.

  Before the region the program cuts each network's 129 × 128 first-layer matrix into the 64 rows that meet the source
  features, the 64 rows that meet the target features and the one row that meets the squared distance, and joins the two
  networks' pieces along the lane axis; the two biases are joined the same way, and the position network's 128 × 1
  second-layer column is recast as a 1 × 128 row. So lane k < 128 of a joined operand is the feature network's entry k,
  and lane 128 + k the position network's. Read through these joins, the region's two result arrays are the layer's
  specification: the feature messages and the position updates of the gathered operands.
-/
import proofs.«142912_j82867099009204_2_alg».proof.Proof.KernelArray
import Idealize.ShloMosaic.Lib.ValueLayout

noncomputable section

namespace Cert.KernelIdeal.Fused

open Cert.KernelIdeal Cert.KernelIdeal.Point Cert.KernelIdeal.Region Idealize.ShloMosaic Idealize.ShloMosaic.ValueIdx
open Cert.Proof.EdgeSpec

/-! ## A joined operand at a lane -/

theorem rows_src_x (W1x W1p : FVec Ideal S129x128 .f32) (hs0 : S129x128.Slices ![0, 0] S64x128) (hc : Shape.Concatenates [S64x128, S64x128] S64x256 1)
    (q : Fin 64) (k : Fin 128) :
    (concatenate S64x256 1 [⟨S64x128, extractStridedSlice S64x128 ![0, 0] W1x hs0⟩, ⟨S64x128, extractStridedSlice S64x128 ![0, 0] W1p hs0⟩] hc) (ix2 q (laneX k))
      = W1x (ix2 (⟨q.val, by have := q.isLt; omega⟩ : Fin 129) k) := by
  refine (concatenate_pair_apply_left (t := S64x256) (s₁ := S64x128) (s₂ := S64x128) (1 : Fin 2) _ _ hc (ix2 q (laneX k)) rfl (ix2 q k) (fun b => ?_)).trans ?_
  · match b with
    | ⟨0, _⟩ => rfl
    | ⟨1, _⟩ => show k.val = 0 + k.val; omega
  · exact slice2_axis0_apply 0 W1x hs0 q k _ (by show q.val = 0 + q.val; omega)

theorem rows_src_p (W1x W1p : FVec Ideal S129x128 .f32) (hs0 : S129x128.Slices ![0, 0] S64x128) (hc : Shape.Concatenates [S64x128, S64x128] S64x256 1)
    (q : Fin 64) (k : Fin 128) :
    (concatenate S64x256 1 [⟨S64x128, extractStridedSlice S64x128 ![0, 0] W1x hs0⟩, ⟨S64x128, extractStridedSlice S64x128 ![0, 0] W1p hs0⟩] hc) (ix2 q (laneP k))
      = W1p (ix2 (⟨q.val, by have := q.isLt; omega⟩ : Fin 129) k) := by
  refine (concatenate_pair_apply_right (t := S64x256) (s₁ := S64x128) (s₂ := S64x128) (1 : Fin 2) _ _ hc (ix2 q (laneP k)) rfl rfl (ix2 q k) (fun b hb => ?_) ?_).trans ?_
  · match b with
    | ⟨0, _⟩ => rfl
    | ⟨1, _⟩ => exact absurd (Fin.ext rfl) hb
  · show k.val + 128 = 128 + k.val; omega
  · exact slice2_axis0_apply 0 W1p hs0 q k _ (by show q.val = 0 + q.val; omega)

theorem rows_tgt_x (W1x W1p : FVec Ideal S129x128 .f32) (hs64 : S129x128.Slices ![64, 0] S64x128) (hc : Shape.Concatenates [S64x128, S64x128] S64x256 1)
    (q : Fin 64) (k : Fin 128) :
    (concatenate S64x256 1 [⟨S64x128, extractStridedSlice S64x128 ![64, 0] W1x hs64⟩, ⟨S64x128, extractStridedSlice S64x128 ![64, 0] W1p hs64⟩] hc) (ix2 q (laneX k))
      = W1x (ix2 (⟨64 + q.val, by have := q.isLt; omega⟩ : Fin 129) k) := by
  refine (concatenate_pair_apply_left (t := S64x256) (s₁ := S64x128) (s₂ := S64x128) (1 : Fin 2) _ _ hc (ix2 q (laneX k)) rfl (ix2 q k) (fun b => ?_)).trans ?_
  · match b with
    | ⟨0, _⟩ => rfl
    | ⟨1, _⟩ => show k.val = 0 + k.val; omega
  · exact slice2_axis0_apply 64 W1x hs64 q k _ (by show 64 + q.val = 64 + q.val; omega)

theorem rows_tgt_p (W1x W1p : FVec Ideal S129x128 .f32) (hs64 : S129x128.Slices ![64, 0] S64x128) (hc : Shape.Concatenates [S64x128, S64x128] S64x256 1)
    (q : Fin 64) (k : Fin 128) :
    (concatenate S64x256 1 [⟨S64x128, extractStridedSlice S64x128 ![64, 0] W1x hs64⟩, ⟨S64x128, extractStridedSlice S64x128 ![64, 0] W1p hs64⟩] hc) (ix2 q (laneP k))
      = W1p (ix2 (⟨64 + q.val, by have := q.isLt; omega⟩ : Fin 129) k) := by
  refine (concatenate_pair_apply_right (t := S64x256) (s₁ := S64x128) (s₂ := S64x128) (1 : Fin 2) _ _ hc (ix2 q (laneP k)) rfl rfl (ix2 q k) (fun b hb => ?_) ?_).trans ?_
  · match b with
    | ⟨0, _⟩ => rfl
    | ⟨1, _⟩ => exact absurd (Fin.ext rfl) hb
  · show k.val + 128 = 128 + k.val; omega
  · exact slice2_axis0_apply 64 W1p hs64 q k _ (by show 64 + q.val = 64 + q.val; omega)

theorem row_dist_x (W1x W1p : FVec Ideal S129x128 .f32) (hs128 : S129x128.Slices ![128, 0] S1x128) (hc1 : Shape.Concatenates [S1x128, S1x128] S1x256 1)
    (q : Fin 1) (k : Fin 128) :
    (concatenate S1x256 1 [⟨S1x128, extractStridedSlice S1x128 ![128, 0] W1x hs128⟩, ⟨S1x128, extractStridedSlice S1x128 ![128, 0] W1p hs128⟩] hc1) (ix2 q (laneX k))
      = W1x (ix2 (⟨128 + q.val, by have := q.isLt; omega⟩ : Fin 129) k) := by
  refine (concatenate_pair_apply_left (t := S1x256) (s₁ := S1x128) (s₂ := S1x128) (1 : Fin 2) _ _ hc1 (ix2 q (laneX k)) rfl (ix2 q k) (fun b => ?_)).trans ?_
  · match b with
    | ⟨0, _⟩ => rfl
    | ⟨1, _⟩ => show k.val = 0 + k.val; omega
  · exact slice2_axis0_apply 128 W1x hs128 q k _ (by show 128 + q.val = 128 + q.val; omega)

theorem row_dist_p (W1x W1p : FVec Ideal S129x128 .f32) (hs128 : S129x128.Slices ![128, 0] S1x128) (hc1 : Shape.Concatenates [S1x128, S1x128] S1x256 1)
    (q : Fin 1) (k : Fin 128) :
    (concatenate S1x256 1 [⟨S1x128, extractStridedSlice S1x128 ![128, 0] W1x hs128⟩, ⟨S1x128, extractStridedSlice S1x128 ![128, 0] W1p hs128⟩] hc1) (ix2 q (laneP k))
      = W1p (ix2 (⟨128 + q.val, by have := q.isLt; omega⟩ : Fin 129) k) := by
  refine (concatenate_pair_apply_right (t := S1x256) (s₁ := S1x128) (s₂ := S1x128) (1 : Fin 2) _ _ hc1 (ix2 q (laneP k)) rfl rfl (ix2 q k) (fun b hb => ?_) ?_).trans ?_
  · match b with
    | ⟨0, _⟩ => rfl
    | ⟨1, _⟩ => exact absurd (Fin.ext rfl) hb
  · show k.val + 128 = 128 + k.val; omega
  · exact slice2_axis0_apply 128 W1p hs128 q k _ (by show 128 + q.val = 128 + q.val; omega)

theorem bias_x (b1x b1p : FVec Ideal S128 .f32) (hc0 : Shape.Concatenates [S128, S128] S256 0) (k : Fin 128) :
    (concatenate S256 0 [⟨S128, b1x⟩, ⟨S128, b1p⟩] hc0) (ix1 (laneX k)) = b1x (ix1 k) := by
  refine concatenate_pair_apply_left (t := S256) (s₁ := S128) (s₂ := S128) (0 : Fin 1) _ _ hc0 (ix1 (laneX k)) rfl (ix1 k) (fun b => ?_)
  match b with
  | ⟨0, _⟩ => show k.val = 0 + k.val; omega

theorem bias_p (b1x b1p : FVec Ideal S128 .f32) (hc0 : Shape.Concatenates [S128, S128] S256 0) (k : Fin 128) :
    (concatenate S256 0 [⟨S128, b1x⟩, ⟨S128, b1p⟩] hc0) (ix1 (laneP k)) = b1p (ix1 k) := by
  refine concatenate_pair_apply_right (t := S256) (s₁ := S128) (s₂ := S128) (0 : Fin 1) _ _ hc0 (ix1 (laneP k)) rfl rfl (ix1 k) (fun b hb => ?_) ?_
  · match b with
    | ⟨0, _⟩ => exact absurd (Fin.ext rfl) hb
  · show k.val + 128 = 128 + k.val; omega

/-- The 128 × 1 column recast as a 1 × 128 row reads, at lane `k`, the column's entry `k`. -/
theorem column_as_row (W2p : FVec Ideal S128x1 .f32) (h : S128x1.ShapeCasts S1x128) (k : Fin 128) :
    shapeCast S1x128 W2p h (ix2 (0 : Fin 1) k) = W2p (ix2 k (0 : Fin 1)) :=
  shapeCast_apply W2p h _ _ (by
    rw [Shape.rowMajor_val_two, Shape.rowMajor_val_two]
    show k.val * 1 + 0 = 0 * 128 + k.val
    omega)

/-! ## The region's results are the specification's -/

section Results

variable (XR XC : FVec Ideal S800000x64 .f32) (RP : FVec Ideal S800000x3 .f32) (W1x W1p : FVec Ideal S129x128 .f32)
  (b1x b1p : FVec Ideal S128 .f32)

/-- The feature messages, with the joined operands opened: the feature network's specification. -/
theorem msgArr_eq (W2 : FVec Ideal S128x64 .f32) (b2 : FVec Ideal S64 .f32) (hs0 : S129x128.Slices ![0, 0] S64x128) (hs64 : S129x128.Slices ![64, 0] S64x128) (hs128 : S129x128.Slices ![128, 0] S1x128)
    (hc : Shape.Concatenates [S64x128, S64x128] S64x256 1) (hc1 : Shape.Concatenates [S1x128, S1x128] S1x256 1)
    (hc0 : Shape.Concatenates [S128, S128] S256 0) :
    msgArr XR XC RP (concatenate S64x256 1 [⟨S64x128, extractStridedSlice S64x128 ![0, 0] W1x hs0⟩, ⟨S64x128, extractStridedSlice S64x128 ![0, 0] W1p hs0⟩] hc) (concatenate S64x256 1 [⟨S64x128, extractStridedSlice S64x128 ![64, 0] W1x hs64⟩, ⟨S64x128, extractStridedSlice S64x128 ![64, 0] W1p hs64⟩] hc)
      (concatenate S1x256 1 [⟨S1x128, extractStridedSlice S1x128 ![128, 0] W1x hs128⟩, ⟨S1x128, extractStridedSlice S1x128 ![128, 0] W1p hs128⟩] hc1) (concatenate S256 0 [⟨S128, b1x⟩, ⟨S128, b1p⟩] hc0) W2 b2
      = msgX XR XC RP W1x b1x W2 b2 := by
  funext i
  show msgOf _ _ _ _ _ _ _ W2 b2 (i 0) (i 1) = msgAt XR XC RP W1x b1x W2 b2 (i 0) (i 1)
  unfold msgOf msgAt hid
  simp only [rows_src_x, rows_tgt_x, row_dist_x, bias_x]
  rfl

/-- The position updates, with the joined operands and the recast column opened: the position network's specification. -/
theorem posArr_eq (W2p : FVec Ideal S128x1 .f32) (b2 : FVec Ideal S1 .f32) (hr : S128x1.ShapeCasts S1x128) (hs0 : S129x128.Slices ![0, 0] S64x128) (hs64 : S129x128.Slices ![64, 0] S64x128) (hs128 : S129x128.Slices ![128, 0] S1x128)
    (hc : Shape.Concatenates [S64x128, S64x128] S64x256 1) (hc1 : Shape.Concatenates [S1x128, S1x128] S1x256 1)
    (hc0 : Shape.Concatenates [S128, S128] S256 0) :
    posArr XR XC RP (concatenate S64x256 1 [⟨S64x128, extractStridedSlice S64x128 ![0, 0] W1x hs0⟩, ⟨S64x128, extractStridedSlice S64x128 ![0, 0] W1p hs0⟩] hc) (concatenate S64x256 1 [⟨S64x128, extractStridedSlice S64x128 ![64, 0] W1x hs64⟩, ⟨S64x128, extractStridedSlice S64x128 ![64, 0] W1p hs64⟩] hc)
      (concatenate S1x256 1 [⟨S1x128, extractStridedSlice S1x128 ![128, 0] W1x hs128⟩, ⟨S1x128, extractStridedSlice S1x128 ![128, 0] W1p hs128⟩] hc1) (concatenate S256 0 [⟨S128, b1x⟩, ⟨S128, b1p⟩] hc0) (shapeCast S1x128 W2p hr) b2
      = posUpd XR XC RP W1p b1p W2p b2 := by
  funext i
  show posOf _ _ _ _ _ _ _ _ b2 (i 0) (i 1) = wposAt XR XC RP W1p b1p W2p b2 (i 0) * RP (ix2 (i 0) (i 1))
  unfold posOf wposAt hid
  simp only [rows_src_p, rows_tgt_p, row_dist_p, bias_p, column_as_row]
  rfl

end Results

end Cert.KernelIdeal.Fused

end
-- ==== Proof.RefValue.lean ====
/-
  The reference program's two per-edge arrays, read one operation at a time, are the layer's specification.

  The reference joins source features, target features and the squared distance into one row of 129 numbers per edge and
  contracts it against each network's 129 × 128 first-layer matrix. Reading the joined row piece by piece — entries 0–63
  the source features, 64–127 the target features, entry 128 the squared distance — and splitting the 129-term sum at
  those boundaries gives the split form of the specification. The activation is spelt with a negation, an exponential,
  a sum with one and a quotient of one: x · σ(x). The second layers are plain contractions over the 128 hidden units.
-/
import proofs.«142912_j82867099009204_2_alg».proof.Proof.Gen.ReferenceIdeal.Read
import proofs.«142912_j82867099009204_2_alg».proof.Proof.EdgeSpec

noncomputable section

namespace Cert.ReferenceIdeal.RefValue

open Cert.ReferenceIdeal Cert.ReferenceIdeal.Gen Cert.ReferenceIdeal.Read Idealize.ShloMosaic Idealize.ShloMosaic.ValueIdx
open Cert.Proof.EdgeSpec

/-! ## The joined row, piece by piece -/

/-- Entries 0–63 of an edge's joined row are its source features. -/
theorem comb_src (x0 : (⟨S50000x64, .f32⟩ : BufTy).Contents (Elt Ideal)) (x1 : (⟨S50000x3, .f32⟩ : BufTy).Contents (Elt Ideal)) (x2 : (⟨S2x800000, .i32⟩ : BufTy).Contents (Elt Ideal)) (e : Fin 800000) (k : Fin 64) (hk : k.val < 129) :
    val_main_v36 (F := Ideal) x0 x1 x2 (ix2 e (⟨k.val, hk⟩ : Fin 129)) = val_main_v28 (F := Ideal) x0 x2 (ix2 e k) := by
  unfold val_main_v36
  exact concatenate_apply_piece (1 : Fin 2) _ _ (ix2 e (⟨k.val, hk⟩ : Fin 129)) 0 (by show 0 < 3; decide) S800000x64 _ rfl rfl 0 rfl (ix2 e k)
    (fun b hb => match b with
      | ⟨0, _⟩ => rfl
      | ⟨1, _⟩ => absurd (Fin.ext rfl) hb)
    (by show 0 + k.val = k.val; omega)

/-- Entries 64–127 are its target features. -/
theorem comb_tgt (x0 : (⟨S50000x64, .f32⟩ : BufTy).Contents (Elt Ideal)) (x1 : (⟨S50000x3, .f32⟩ : BufTy).Contents (Elt Ideal)) (x2 : (⟨S2x800000, .i32⟩ : BufTy).Contents (Elt Ideal)) (e : Fin 800000) (k : Fin 64) (hk : 64 + k.val < 129) :
    val_main_v36 (F := Ideal) x0 x1 x2 (ix2 e (⟨64 + k.val, hk⟩ : Fin 129)) = val_main_v35 (F := Ideal) x0 x2 (ix2 e k) := by
  unfold val_main_v36
  exact concatenate_apply_piece (1 : Fin 2) _ _ (ix2 e (⟨64 + k.val, hk⟩ : Fin 129)) 1 (by show 1 < 3; decide) S800000x64 _ rfl rfl 64 (by first | rfl | simp) (ix2 e k)
    (fun b hb => match b with
      | ⟨0, _⟩ => rfl
      | ⟨1, _⟩ => absurd (Fin.ext rfl) hb)
    (by show 64 + k.val = 64 + k.val; rfl)

/-- Entry 128 is the squared length of its relative position. -/
theorem comb_dist (x0 : (⟨S50000x64, .f32⟩ : BufTy).Contents (Elt Ideal)) (x1 : (⟨S50000x3, .f32⟩ : BufTy).Contents (Elt Ideal)) (x2 : (⟨S2x800000, .i32⟩ : BufTy).Contents (Elt Ideal)) (e : Fin 800000) (h128 : 128 < 129) :
    val_main_v36 (F := Ideal) x0 x1 x2 (ix2 e (⟨128, h128⟩ : Fin 129)) = dsq fun a => val_main_v18 (F := Ideal) x1 x2 (ix2 e a) := by
  unfold val_main_v36
  refine (concatenate_apply_piece (1 : Fin 2) _ _ (ix2 e (⟨128, h128⟩ : Fin 129)) 2 (by show 2 < 3; decide) S800000x1 _ rfl rfl 128 (by first | rfl | simp) (ix2 e (0 : Fin 1))
    (fun b hb => match b with
      | ⟨0, _⟩ => rfl
      | ⟨1, _⟩ => absurd (Fin.ext rfl) hb)
    (by show 128 + 0 = 128; rfl)).trans ?_
  rw [val_main_v21_apply, val_main_v20_apply, val_main_cst_apply]
  show Ideal.ofBits .f32 0x00000000#32 + _ = _
  rw [Ideal.ofBits_zero_f32, zero_add]
  unfold dsq
  refine Finset.sum_congr rfl fun a _ => ?_
  have hidx : idx_main_v20 (idx_main_v21 (ix2 e (0 : Fin 1))) a = ix2 e a :=
    funext fun d => by match d with | ⟨0, _⟩ => rfl | ⟨1, _⟩ => rfl
  rw [val_main_v19_apply, hidx]
  rfl

/-! ## The feature network -/

theorem lidx_x (e : Fin 800000) (k : Fin 128) (q : Fin 129) : lidx_main_v37 (ix2 e k) q = ix2 e q :=
  funext fun a => by match a with | ⟨0, _⟩ => rfl | ⟨1, _⟩ => rfl
theorem ridx_x (e : Fin 800000) (k : Fin 128) (q : Fin 129) : ridx_main_v37 (ix2 e k) q = ix2 q k :=
  funext fun a => by match a with | ⟨0, _⟩ => rfl | ⟨1, _⟩ => rfl
theorem bidx_x (e : Fin 800000) (k : Fin 128) : idx_main_v38 (idx_main_v39 (ix2 e k)) = ix1 k :=
  funext fun a => by match a with | ⟨0, _⟩ => rfl

/-- A hidden unit of this network before the activation: the one 129-term contraction, split into its three stretches. -/
theorem hid_x (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S129x128, .f32⟩ : BufTy).Contents (Elt Ideal)) (x4 : (⟨S128, .f32⟩ : BufTy).Contents (Elt Ideal)) (e : Fin 800000) (k : Fin 128) :
    val_main_v40 (F := Ideal) x0 x1 x2 x3 x4 (ix2 e k)
      = hid (val_main_v28 (F := Ideal) x0 x2) (val_main_v35 (F := Ideal) x0 x2) (val_main_v18 (F := Ideal) x1 x2) x3 x4 e k := by
  rw [val_main_v40_apply, val_main_v37_apply, val_main_v39_apply, val_main_v38_apply, sum_split]
  unfold hid pre
  simp only [lidx_x, ridx_x, bidx_x, comb_src, comb_tgt, comb_dist]
  rfl

/-- The activation as the host spells it is x · σ(x). -/
theorem act_x (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S129x128, .f32⟩ : BufTy).Contents (Elt Ideal)) (x4 : (⟨S128, .f32⟩ : BufTy).Contents (Elt Ideal)) (i : S800000x128.Idx) :
    val_main_v41 (F := Ideal) x0 x1 x2 x3 x4 i = silu (val_main_v40 (F := Ideal) x0 x1 x2 x3 x4 i) := by
  rw [val_main_v41_apply, val_main_call0_v5_apply, val_main_call0_v4_apply, val_main_call0_cst_0_apply, val_main_call0_v3_apply,
    val_main_call0_v2_apply, val_main_call0_cst_apply, val_main_call0_v1_apply, val_main_call0_v0_apply]
  exact silu_expanded _

theorem lidx_out_x (e : Fin 800000) (f : Fin 64) (k : Fin 128) : lidx_main_v42 (ix2 e f) k = ix2 e k :=
  funext fun a => by match a with | ⟨0, _⟩ => rfl | ⟨1, _⟩ => rfl
theorem ridx_out_x (e : Fin 800000) (f : Fin 64) (k : Fin 128) : ridx_main_v42 (ix2 e f) k = ix2 k f :=
  funext fun a => by match a with | ⟨0, _⟩ => rfl | ⟨1, _⟩ => rfl
theorem bidx_out_x (e : Fin 800000) (f : Fin 64) : idx_main_v43 (idx_main_v44 (ix2 e f)) = ix1 f :=
  funext fun a => by match a with | ⟨0, _⟩ => rfl

/-- THE REFERENCE'S FEATURE MESSAGES are the specification's, of the gathered source and target features and the relative
    positions. -/
theorem msg_eq (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x3 : (⟨S129x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v45 (F := Ideal) x0 x1 x2 x3 x4 x5 x6
      = msgX (val_main_v28 (F := Ideal) x0 x2) (val_main_v35 (F := Ideal) x0 x2) (val_main_v18 (F := Ideal) x1 x2) x3 x4 x5 x6 := by
  funext i
  obtain ⟨e, f, rfl⟩ : ∃ (e : Fin 800000) (f : Fin 64), i = ix2 e f := ⟨i 0, i 1, eq_ix2 i⟩
  rw [val_main_v45_apply, val_main_v42_apply, val_main_v44_apply, val_main_v43_apply]
  show _ = msgAt _ _ _ x3 x4 x5 x6 e f
  unfold msgAt
  simp only [lidx_out_x, ridx_out_x, bidx_out_x, act_x, hid_x]
  rfl

/-! ## The position network -/

theorem lidx_p (e : Fin 800000) (k : Fin 128) (q : Fin 129) : lidx_main_v49 (ix2 e k) q = ix2 e q :=
  funext fun a => by match a with | ⟨0, _⟩ => rfl | ⟨1, _⟩ => rfl
theorem ridx_p (e : Fin 800000) (k : Fin 128) (q : Fin 129) : ridx_main_v49 (ix2 e k) q = ix2 q k :=
  funext fun a => by match a with | ⟨0, _⟩ => rfl | ⟨1, _⟩ => rfl
theorem bidx_p (e : Fin 800000) (k : Fin 128) : idx_main_v50 (idx_main_v51 (ix2 e k)) = ix1 k :=
  funext fun a => by match a with | ⟨0, _⟩ => rfl

/-- A hidden unit of this network before the activation: the one 129-term contraction, split into its three stretches. -/
theorem hid_p (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x7 : (⟨S129x128, .f32⟩ : BufTy).Contents (Elt Ideal)) (x8 : (⟨S128, .f32⟩ : BufTy).Contents (Elt Ideal)) (e : Fin 800000) (k : Fin 128) :
    val_main_v52 (F := Ideal) x0 x1 x2 x7 x8 (ix2 e k)
      = hid (val_main_v28 (F := Ideal) x0 x2) (val_main_v35 (F := Ideal) x0 x2) (val_main_v18 (F := Ideal) x1 x2) x7 x8 e k := by
  rw [val_main_v52_apply, val_main_v49_apply, val_main_v51_apply, val_main_v50_apply, sum_split]
  unfold hid pre
  simp only [lidx_p, ridx_p, bidx_p, comb_src, comb_tgt, comb_dist]
  rfl

/-- The activation as the host spells it is x · σ(x). -/
theorem act_p (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x7 : (⟨S129x128, .f32⟩ : BufTy).Contents (Elt Ideal)) (x8 : (⟨S128, .f32⟩ : BufTy).Contents (Elt Ideal)) (i : S800000x128.Idx) :
    val_main_v53 (F := Ideal) x0 x1 x2 x7 x8 i = silu (val_main_v52 (F := Ideal) x0 x1 x2 x7 x8 i) := by
  rw [val_main_v53_apply, val_main_call1_v5_apply, val_main_call1_v4_apply, val_main_call1_cst_0_apply, val_main_call1_v3_apply,
    val_main_call1_v2_apply, val_main_call1_cst_apply, val_main_call1_v1_apply, val_main_call1_v0_apply]
  exact silu_expanded _

theorem lidx_out_p (e : Fin 800000) (u : Fin 1) (k : Fin 128) : lidx_main_v54 (ix2 e u) k = ix2 e k :=
  funext fun a => by match a with | ⟨0, _⟩ => rfl | ⟨1, _⟩ => rfl
theorem ridx_out_p (e : Fin 800000) (k : Fin 128) : ridx_main_v54 (ix2 e (0 : Fin 1)) k = ix2 k (0 : Fin 1) :=
  funext fun a => by match a with | ⟨0, _⟩ => rfl | ⟨1, _⟩ => rfl
theorem bidx_out_p (e : Fin 800000) : idx_main_v55 (idx_main_v56 (ix2 e (0 : Fin 1))) = ix1 (0 : Fin 1) :=
  funext fun a => by match a with | ⟨0, _⟩ => rfl
theorem sidx_out_p (e : Fin 800000) (a : Fin 3) : idx_main_v58 (ix2 e a) = ix2 e (0 : Fin 1) :=
  funext fun d => by match d with | ⟨0, _⟩ => rfl | ⟨1, _⟩ => rfl

/-- THE REFERENCE'S POSITION UPDATES are the specification's. -/
theorem pos_eq (x0 : (⟨S50000x64, .f32⟩ : BufTy).Contents (Elt Ideal)) (x1 : (⟨S50000x3, .f32⟩ : BufTy).Contents (Elt Ideal)) (x2 : (⟨S2x800000, .i32⟩ : BufTy).Contents (Elt Ideal)) (x7 : (⟨S129x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal)) :
    val_main_v59 (F := Ideal) x0 x1 x2 x7 x8 x9 x10
      = posUpd (val_main_v28 (F := Ideal) x0 x2) (val_main_v35 (F := Ideal) x0 x2) (val_main_v18 (F := Ideal) x1 x2) x7 x8 x9 x10 := by
  funext i
  obtain ⟨e, a, rfl⟩ : ∃ (e : Fin 800000) (a : Fin 3), i = ix2 e a := ⟨i 0, i 1, eq_ix2 i⟩
  rw [val_main_v59_apply, val_main_v58_apply, sidx_out_p, val_main_v57_apply, val_main_v54_apply, val_main_v56_apply, val_main_v55_apply]
  show _ = wposAt _ _ _ x7 x8 x9 x10 e * _
  unfold wposAt
  simp only [lidx_out_p, ridx_out_p, bidx_out_p, act_p, hid_p]
  rfl

end Cert.ReferenceIdeal.RefValue

end
-- ==== Proof.KernelAround.lean ====
/-
  The whole kernel program: what its two results hold when it ends.

  Before the region the program normalises the edge table's node numbers (a negative number counts from the end), gathers
  each edge's source and target features and positions, subtracts the positions, and lays the weights side by side. After
  the region it adds every edge's feature message into the row of its target node, and every edge's position update
  likewise (a scatter-add into zeros). The operations before the region are, one for one, the reference program's own;
  so each operand the region finds is the reference's corresponding stage of the same arguments, and each final result is
  the scatter-add of the specification's per-edge array by the same target-node numbers.
-/
import proofs.«142912_j82867099009204_2_alg».proof.Proof.KernelFused
import proofs.«142912_j82867099009204_2_alg».proof.Proof.Gen.ReferenceIdeal.Read
import proofs.«142912_j82867099009204_2_alg».proof.Proof.RefValue
import Idealize.ShloMosaic.Lib.StableHlo.Run

set_option maxRecDepth 16384

noncomputable section

namespace Cert.KernelIdeal.Around

open Cert.KernelIdeal Cert.KernelIdeal.Gen Cert.KernelIdeal.Region Cert.KernelIdeal.Fused
open Idealize.ShloMosaic Idealize.ShloMosaic.TcCoe Idealize.SL.Sem Idealize.ShloMosaic.StableHlo Cert.Proof.EdgeSpec

variable (m : (ℓ : Loc nD τ sig) → Buf (Elt Ideal) ℓ) (ρ : Dev nD → PrngReg)

/-! ## What the region finds: the operations before it, read back -/

set_option maxHeartbeats 4000000 in
/-- The target-node numbers (row 1 of the edge table), as the program reads them. -/
theorem found_cols (c : Dev nD) : V m c main_v3 = Cert.ReferenceIdeal.Read.val_main_v3 (F := Ideal) (m ((c.tc : Thread nD τ).loc main_arg2)) := by
  show StableHlo.after hostOps0 (fun b => m (c, b)) (Proc.devRef .tc main_v3) = _
  after_results <;> rfl

set_option maxHeartbeats 4000000 in
/-- Each edge's source features. -/
theorem found_src (c : Dev nD) : V m c main_v10 = Cert.ReferenceIdeal.Read.val_main_v28 (F := Ideal) (m ((c.tc : Thread nD τ).loc main_arg0)) (m ((c.tc : Thread nD τ).loc main_arg2)) := by
  show StableHlo.after hostOps0 (fun b => m (c, b)) (Proc.devRef .tc main_v10) = _
  after_results
  exact congrArg (Host.gather gather_S50000x64_S800000x1_S800000x64_1_0_n_n_0_1_164 (m ((c.tc : Thread nD τ).loc main_arg0)))
    (by rfl : _ = Cert.ReferenceIdeal.Read.val_main_v27 (F := Ideal) (m ((c.tc : Thread nD τ).loc main_arg2)))

set_option maxHeartbeats 4000000 in
/-- Each edge's target features. -/
theorem found_tgt (c : Dev nD) : V m c main_v17 = Cert.ReferenceIdeal.Read.val_main_v35 (F := Ideal) (m ((c.tc : Thread nD τ).loc main_arg0)) (m ((c.tc : Thread nD τ).loc main_arg2)) := by
  show StableHlo.after hostOps0 (fun b => m (c, b)) (Proc.devRef .tc main_v17) = _
  after_results
  exact congrArg (Host.gather gather_S50000x64_S800000x1_S800000x64_1_0_n_n_0_1_164 (m ((c.tc : Thread nD τ).loc main_arg0)))
    (by rfl : _ = Cert.ReferenceIdeal.Read.val_main_v34 (F := Ideal) (m ((c.tc : Thread nD τ).loc main_arg2)))

set_option maxHeartbeats 4000000 in
/-- Each edge's relative position: source position minus target position. -/
theorem found_rel (c : Dev nD) : V m c main_v32 = Cert.ReferenceIdeal.Read.val_main_v18 (F := Ideal) (m ((c.tc : Thread nD τ).loc main_arg1)) (m ((c.tc : Thread nD τ).loc main_arg2)) := by
  show StableHlo.after hostOps0 (fun b => m (c, b)) (Proc.devRef .tc main_v32) = _
  after_results
  exact congrArg₂ (fun a b => subf (F := Ideal) (Host.gather gather_S50000x3_S800000x1_S800000x3_1_0_n_n_0_1_13 (m ((c.tc : Thread nD τ).loc main_arg1)) a)
      (Host.gather gather_S50000x3_S800000x1_S800000x3_1_0_n_n_0_1_13 (m ((c.tc : Thread nD τ).loc main_arg1)) b))
    (by rfl : _ = Cert.ReferenceIdeal.Read.val_main_v9 (F := Ideal) (m ((c.tc : Thread nD τ).loc main_arg2)))
    (by rfl : _ = Cert.ReferenceIdeal.Read.val_main_v16 (F := Ideal) (m ((c.tc : Thread nD τ).loc main_arg2)))

set_option maxHeartbeats 4000000 in
/-- The weights laid side by side. -/
theorem found_rows_src (c : Dev nD) : V m c main_v35
    = concatenate S64x256 1 [⟨S64x128, extractStridedSlice S64x128 ![0, 0] (m ((c.tc : Thread nD τ).loc main_arg3)) slices_S129x128_S64x128_0_0⟩,
        ⟨S64x128, extractStridedSlice S64x128 ![0, 0] (m ((c.tc : Thread nD τ).loc main_arg7)) slices_S129x128_S64x128_0_0⟩] concatenates_S64x128_S64x128_S64x256_d1 := by
  show StableHlo.after hostOps0 (fun b => m (c, b)) (Proc.devRef .tc main_v35) = _
  after_results <;> rfl
set_option maxHeartbeats 4000000 in
theorem found_rows_tgt (c : Dev nD) : V m c main_v38
    = concatenate S64x256 1 [⟨S64x128, extractStridedSlice S64x128 ![64, 0] (m ((c.tc : Thread nD τ).loc main_arg3)) slices_S129x128_S64x128_64_0⟩,
        ⟨S64x128, extractStridedSlice S64x128 ![64, 0] (m ((c.tc : Thread nD τ).loc main_arg7)) slices_S129x128_S64x128_64_0⟩] concatenates_S64x128_S64x128_S64x256_d1 := by
  show StableHlo.after hostOps0 (fun b => m (c, b)) (Proc.devRef .tc main_v38) = _
  after_results <;> rfl
set_option maxHeartbeats 4000000 in
theorem found_row_dist (c : Dev nD) : V m c main_v41
    = concatenate S1x256 1 [⟨S1x128, extractStridedSlice S1x128 ![128, 0] (m ((c.tc : Thread nD τ).loc main_arg3)) slices_S129x128_S1x128_128_0⟩,
        ⟨S1x128, extractStridedSlice S1x128 ![128, 0] (m ((c.tc : Thread nD τ).loc main_arg7)) slices_S129x128_S1x128_128_0⟩] concatenates_S1x128_S1x128_S1x256_d1 := by
  show StableHlo.after hostOps0 (fun b => m (c, b)) (Proc.devRef .tc main_v41) = _
  after_results <;> rfl
set_option maxHeartbeats 4000000 in
theorem found_bias (c : Dev nD) : V m c main_v42
    = concatenate S256 0 [⟨S128, (m ((c.tc : Thread nD τ).loc main_arg4))⟩, ⟨S128, (m ((c.tc : Thread nD τ).loc main_arg8))⟩] concatenates_S128_S128_S256_d0 := by
  show StableHlo.after hostOps0 (fun b => m (c, b)) (Proc.devRef .tc main_v42) = _
  after_results <;> rfl
set_option maxHeartbeats 4000000 in
theorem found_column (c : Dev nD) : V m c main_v43 = shapeCast S1x128 (m ((c.tc : Thread nD τ).loc main_arg9)) shapeCasts_S128x1_S1x128 := by
  show StableHlo.after hostOps0 (fun b => m (c, b)) (Proc.devRef .tc main_v43) = _
  after_results <;> rfl

/-! ## The two result arrays of the region are the reference's per-edge arrays -/

theorem region_msg (c : Dev nD) : (dats m 0 c).arrAt 11 cfg0.N
    = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final_msg, found_src, found_tgt, found_rel, found_rows_src, found_rows_tgt, found_row_dist, found_bias, V_main_arg5, V_main_arg6,
    Cert.ReferenceIdeal.RefValue.msg_eq]
  exact msgArr_eq _ _ _ _ _ _ _ _ _ _ _ _ _ _ _

theorem region_pos (c : Dev nD) : (dats m 0 c).arrAt 12 cfg0.N
    = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  rw [final_pos, found_src, found_tgt, found_rel, found_rows_src, found_rows_tgt, found_row_dist, found_bias, found_column, V_main_arg10,
    Cert.ReferenceIdeal.RefValue.pos_eq]
  exact posArr_eq _ _ _ _ _ _ _ _ _ _ _ _ _ _ _ _

/-! ## After the region: the two scatter-adds -/

set_option maxHeartbeats 4000000 in
theorem result_msg (c : Dev nD) : Pipeline.afterTail₀ cfgs (dats m) 0 (V0 m) [hostOps1] c main_v47
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v47) = _
  after_results
  have e3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have e11 : Pipeline.withArrays (cfgs 0).spec c (V0 m c) (fun w => (dats m 0 c).arrAt w (cfgs 0).N) (Proc.devRef .tc main_v44_0) = (dats m 0 c).arrAt 11 cfg0.N :=
    Pipeline.withArrays_arr spec0 launch0.win.arr_inj c _ _ 11
  rw [e3, e11, found_cols, region_msg]
  rfl

set_option maxHeartbeats 4000000 in
theorem result_pos (c : Dev nD) : Pipeline.afterTail₀ cfgs (dats m) 0 (V0 m) [hostOps1] c main_v50
    = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v50) = _
  after_results
  have e3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have e12 : Pipeline.withArrays (cfgs 0).spec c (V0 m c) (fun w => (dats m 0 c).arrAt w (cfgs 0).N) (Proc.devRef .tc main_v44_1) = (dats m 0 c).arrAt 12 cfg0.N :=
    Pipeline.withArrays_arr spec0 launch0.win.arr_inj c _ _ 12
  rw [e3, e12, found_cols, region_pos]
  rfl

/-! ## The run, read -/

/-- Every weakly fair execution of the kernel program ends with its two results at the reference's two stages of the same
    arguments, and its arguments unchanged. -/
theorem run : θ_run defs (onTc (τ := τ) (main (F := Ideal))) ⟨m, fun _ => 0, ρ⟩ fun r => ∀ c : Dev nD,
      r.2.mem ((c.tc : Thread nD τ).loc main_v47) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v50) = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v47 (Pipeline.mem_restRefs_of main_v47 (by decide) (by decide))).trans (result_msg m c),
      ((h c).2 main_v50 (Pipeline.mem_restRefs_of main_v50 (by decide) (by decide))).trans (result_pos m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 7).trans ((((dats m) 0 c).arrAt_in 7 rfl _).trans ((A_eq m c 7).trans (V_main_arg5 m c))),
      ((h c).1 8).trans ((((dats m) 0 c).arrAt_in 8 rfl _).trans ((A_eq m c 8).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans ((((dats m) 0 c).arrAt_in 10 rfl _).trans ((A_eq m c 10).trans (V_main_arg10 m c)))⟩)
    (run_main m ρ)

end Cert.KernelIdeal.Around

end
-- ==== Proof.lean ====
/-
  One message-passing layer over a graph of 50000 nodes and 800000 edges: the kernel program against its reference.

  For every edge the layer computes, from the source and target nodes' 64 features and the squared distance of their
  positions, a feature message (a two-layer network with the activation x · σ(x)) and a scalar weight for the relative
  position (a second such network); it then adds each edge's message and weighted relative position into its target
  node's row. The reference does this with whole-array operations. The kernel program gathers the per-edge operands the
  same way, runs the two networks inside one gridded region over blocks of 5000 edges — their first layers fused side by
  side over 256 lanes, the 129-term contraction split into the source block, the target block and the distance term — and
  performs the same two scatter-adds.

  On the extended reals the two agree entry by entry: a change of float format is the identity, a matrix product into zero
  and a lane sum from zero are plain sums, a sum over 129 terms is the sum of its three stretches (only commutativity and
  associativity of addition, so nothing has to be finite), and the logistic function is by definition 1 / (1 + e⁻ˣ), which
  is how the reference spells it. The per-point value of the region's body, the tiling of its result arrays by the blocks,
  the host operations around the region and the reference's stages are each read in a module of their own; here the claims
  are assembled: the three frames, the idealization (no rewrite was applied, so nothing to show) and the equality of results.
-/
import proofs.«142912_j82867099009204_2_alg».proof.Defs
import proofs.«142912_j82867099009204_2_alg».proof.Proof.Gen.Kernel
import proofs.«142912_j82867099009204_2_alg».proof.Proof.Gen.Kernel.Skeleton
import proofs.«142912_j82867099009204_2_alg».proof.Proof.Gen.Kernel.Launch
import proofs.«142912_j82867099009204_2_alg».proof.Proof.Gen.Kernel.Points
import proofs.«142912_j82867099009204_2_alg».proof.Proof.Gen.Kernel.Frame
import proofs.«142912_j82867099009204_2_alg».proof.Proof.Gen.KernelIdeal
import proofs.«142912_j82867099009204_2_alg».proof.Proof.Gen.KernelIdeal.Skeleton
import proofs.«142912_j82867099009204_2_alg».proof.Proof.Gen.KernelIdeal.Launch
import proofs.«142912_j82867099009204_2_alg».proof.Proof.Gen.KernelIdeal.Points
import proofs.«142912_j82867099009204_2_alg».proof.Proof.Gen.KernelIdeal.Frame
import proofs.«142912_j82867099009204_2_alg».proof.Proof.Gen.ReferenceIdeal
import proofs.«142912_j82867099009204_2_alg».proof.Proof.Gen.ReferenceIdeal.Run
import proofs.«142912_j82867099009204_2_alg».proof.Proof.Gen.ReferenceIdeal.Read
import proofs.«142912_j82867099009204_2_alg».proof.Proof.Gen.Pre_finite_inputs
import proofs.«142912_j82867099009204_2_alg».proof.Proof.KernelAround
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eleven arguments both programs end with the same two results: the kernel program's
    are the reference's own last two stages of the arguments, and the reference's run ends at those stages. -/
theorem algebraic : Cert.algebraic_KernelIdeal_ReferenceIdeal := by
  intro m ρ m' ρ' _ hagree
  refine ⟨_, _, Cert.KernelIdeal.Around.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v48_eq, a0, a1, a2, a3, a4, a5, a6]
  · obtain ⟨a0, a1, a2, a3, a4, a5, a6, a7, a8, a9, a10⟩ := hagree c
    rw [(h c).2.1, Cert.ReferenceIdeal.Read.val_main_v62_eq, a0, a1, a2, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
